-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048x2048 .f32) (main_arg13 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S1x6144 : Shape := ⟨2, ![1, 6144]⟩
abbrev S128x256 : Shape := ⟨2, ![128, 256]⟩
abbrev S128x2048 : Shape := ⟨2, ![128, 2048]⟩
abbrev S6144x256 : Shape := ⟨2, ![6144, 256]⟩
abbrev S128x6144 : Shape := ⟨2, ![128, 6144]⟩

abbrev nBuf : Space → Nat
  | .hbm => 24
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S6144x2048, .f32⟩
  | .hbm, ⟨15, _⟩ => ⟨S6144x2048, .bf16⟩
  | .hbm, ⟨16, _⟩ => ⟨S6144x2048, .f32⟩
  | .hbm, ⟨17, _⟩ => ⟨S6144x2048, .bf16⟩
  | .hbm, ⟨18, _⟩ => ⟨S6144, .f32⟩
  | .hbm, ⟨19, _⟩ => ⟨S1x6144, .f32⟩
  | .hbm, ⟨20, _⟩ => ⟨S6144, .f32⟩
  | .hbm, ⟨21, _⟩ => ⟨S1x6144, .f32⟩
  | .hbm, ⟨22, _⟩ => ⟨S8192x2048, .bf16⟩
  | .hbm, ⟨23, _⟩ => ⟨S8192x2048, .f32⟩
  | .local _ .vmem, ⟨0, _⟩ => ⟨S128x256, .bf16⟩
  | .local _ .vmem, ⟨1, _⟩ => ⟨S128x256, .bf16⟩
  | .local _ .vmem, ⟨2, _⟩ => ⟨S128x2048, .f32⟩
  | .local _ .vmem, ⟨3, _⟩ => ⟨S128x2048, .f32⟩
  | .local _ .vmem, ⟨4, _⟩ => ⟨S6144x256, .bf16⟩
  | .local _ .vmem, ⟨5, _⟩ => ⟨S6144x256, .bf16⟩
  | .local _ .vmem, ⟨6, _⟩ => ⟨S6144x256, .bf16⟩
  | .local _ .vmem, ⟨7, _⟩ => ⟨S6144x256, .bf16⟩
  | .local _ .vmem, ⟨8, _⟩ => ⟨S1x6144, .f32⟩
  | .local _ .vmem, ⟨9, _⟩ => ⟨S1x6144, .f32⟩
  | .local _ .vmem, ⟨10, _⟩ => ⟨S128x2048, .f32⟩
  | .local _ .vmem, ⟨11, _⟩ => ⟨S128x2048, .f32⟩
  | .local _ .vmem, ⟨12, _⟩ => ⟨S128x6144, .f32⟩
  | .local _ .vmem, ⟨13, _⟩ => ⟨S128x6144, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S6144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S2048x2048_S2048x2048_S2048x2048_S6144x2048_d0 : Shape.Concatenates [S2048x2048, S2048x2048, S2048x2048] S6144x2048 0
  bitsLt_bf16_f32 : FTy.bits .bf16 < FTy.bits .f32
  concatenates_S2048_S2048_S2048_S6144_d0 : Shape.Concatenates [S2048, S2048, S2048] S6144 0
  shapeCasts_S6144_S1x6144 : S6144.ShapeCasts S1x6144
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  h_S128x256 : 0 < S128x256.numel
  inb_S128x256_S128x256_0_0 : ∀ a, (![0, 0] : Fin 2 → Nat) a + S128x256.size a ≤ S128x256.size a
  shapeCasts_S128x256_S128x256 : S128x256.ShapeCasts S128x256
  inb_S6144x256_S6144x256_0_0 : ∀ a, (![0, 0] : Fin 2 → Nat) a + S6144x256.size a ≤ S6144x256.size a
  h_S6144x256 : 0 < S6144x256.numel
  shapeCasts_S6144x256_S6144x256 : S6144x256.ShapeCasts S6144x256
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S128x6144 : S1x6144.Broadcasts S128x6144
  inb_S128x6144_S128x2048_0_0 : ∀ a, (![0, 0] : Fin 2 → Nat) a + S128x2048.size a ≤ S128x6144.size a
  h_S128x2048 : 0 < S128x2048.numel
  inb_S128x6144_S128x2048_0_2048 : ∀ a, (![0, 2048] : Fin 2 → Nat) a + S128x2048.size a ≤ S128x6144.size a
  inb_S128x6144_S128x2048_0_4096 : ∀ a, (![0, 4096] : Fin 2 → Nat) a + S128x2048.size a ≤ S128x6144.size a
  inb_S128x2048_S128x2048_0_0 : ∀ a, (![0, 0] : Fin 2 → Nat) a + S128x2048.size a ≤ S128x2048.size a
  dot_S128x256_S6144x256_S128x6144_1_1_0_0_n_n_wf : DotDims.WF S128x256 S6144x256 S128x6144 [1] [1] [0] [0] [] []
  hrank0 : 0 < grid0.rank
  k0_mult1_dvd : ∀ i : grid0.Coords, 256 ∣ (k0_mult1 i).toNat
  k0_off1_inb : ∀ i : grid0.Coords, ∀ a, (k0_off1 i) a + S128x256.size a ≤ S128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x2048.size a
  hwx0_0 : ∀ i : grid0.Coords, EltTy.bits .bf16 = 32 ∨ (Rect.block (s := S8192x2048) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6144x256.size a ≤ S6144x2048.size a
  hwx0_2 : ∀ i : grid0.Coords, EltTy.bits .bf16 = 32 ∨ (Rect.block (s := S6144x2048) S6144x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6144x256.size a ≤ S6144x2048.size a
  hwx0_3 : ∀ i : grid0.Coords, EltTy.bits .bf16 = 32 ∨ (Rect.block (s := S6144x2048) S6144x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S8192x2048.size a
  hwx0_6 : ∀ i : grid0.Coords, EltTy.bits .f32 = 32 ∨ (Rect.block (s := S8192x2048) S128x2048.size (cc0_transform_6 i) (hinb0_6 i)).WholeWords (EltTy.packing .f32)

variable [Facts₀]

def dot_S128x256_S6144x256_S128x6144_1_1_0_0_n_n : DotDims S128x256 S6144x256 S128x6144 where
  lhsContracting := [1]
  rhsContracting := [1]
  lhsNonContracting := [0]
  rhsNonContracting := [0]
  lhsBatch := []
  rhsBatch := []
  wf := dot_S128x256_S6144x256_S128x6144_1_1_0_0_n_n_wf

abbrev win0_0 : Pipeline.Window sig grid0 :=
  Pipeline.Window.ofSpec (Memref.whole main_v8) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6144x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S6144x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S6144x2048, .f32⟩
  | .hbm, ⟨15, _⟩ => ⟨S6144, .f32⟩
  | .hbm, ⟨16, _⟩ => ⟨S6144x2048, .f32⟩
  | .hbm, ⟨17, _⟩ => ⟨S6144, .f32⟩
  | .hbm, ⟨18, _⟩ => ⟨S2048x6144, .f32⟩
  | .hbm, ⟨19, _⟩ => ⟨S8192x6144, .f32⟩
  | .hbm, ⟨20, _⟩ => ⟨S1x6144, .f32⟩
  | .hbm, ⟨21, _⟩ => ⟨S8192x6144, .f32⟩
  | .hbm, ⟨22, _⟩ => ⟨S8192x6144, .f32⟩
  | .hbm, ⟨23, _⟩ => ⟨S2048x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.Kernel.Entry.lean ====
/-
  The region of @main as the launch finds it: the arrays after the nine host operations that stack the three gates'
  weights and biases and narrow x (the contents every window's blocks are cut from), each window's block at a grid
  point, the two conditions of the body (first and last point of the reduction axis, the grid's second coordinate 0
  and 7) decided over the 64 × 8 grid, where the output window is idle, and the frame's post read off a run whose
  arrays are those contents. Stated at any float instance.
-/
import proofs.«148190_j1580547973492_1_alg».proof.Proof.Gen.Kernel.Launch
import proofs.«148190_j1580547973492_1_alg».proof.Proof.Gen.Kernel.Skeleton
import proofs.«148190_j1580547973492_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a run of the region -/

/-- A run ending with every window's array at what the proof data computes and every other unscoped buffer as the
    region found it leaves the fourteen argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's two conditions -/

/-- The first conditional (clear the two accumulators): the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (add the biases, form the gates, store the row block): the reduction coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last reduction step the body stores nothing into the output window and the pipeline does not write it back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

/-- One staging buffer of the output window, through which its contents are stated. -/
abbrev VO0_6 : View sig .tc .vmem S128x2048 .f32 := (Memref.whole cc0_stg6_0 : Memref sig .tc .vmem S128x2048 .f32).view
abbrev ms0_0 (t : Fin cfg0.N) : Memref sig .tc .vmem S128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
/-- The two accumulators (input-side and hidden-side pre-activations, 128 rows by the 6144 stacked columns). -/
abbrev scM0_0 : Memref sig .tc .vmem S128x6144 .f32 := Memref.whole cc0_scratch0
abbrev scM0_1 : Memref sig .tc .vmem S128x6144 .f32 := Memref.whole cc0_scratch1
abbrev VS0_0 : View sig .tc .vmem S128x6144 .f32 := scM0_0.view
abbrev VS0_1 : View sig .tc .vmem S128x6144 .f32 := scM0_1.view

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Region

end
-- ==== Proof.Kernel.BodyFirst.lean ====
/-
  The kernel body run at the first step of the reduction axis (coordinate 0): both accumulators are cleared, then this step's two products are added. The statement is a separation-logic triple on whole staging memrefs: the six inputs
  are handed back as found; the output's buffer, into which nothing is stored here, is handed back untouched; each accumulator ends with
  the pieces stored into it, whatever it held. The pieces themselves are found by running the body symbolically.
-/
import proofs.«148190_j1580547973492_1_alg».proof.Proof.Kernel.Entry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) :
    Σ' (L6 : List (View.Piece (Elt F) S128x2048 .f32)) (LS0 : List (View.Piece (Elt F) S128x6144 .f32)), { LS1 : List (View.Piece (Elt F) S128x6144 .f32) //
      ∀ (xi6 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Region

end
-- ==== Proof.Kernel.BodyMiddle.lean ====
/-
  The kernel body run at a middle step of the reduction axis (coordinates 1 to 6): this step's two products are added to the accumulators. The statement is a separation-logic triple on whole staging memrefs: the six inputs
  are handed back as found; the output's buffer, into which nothing is stored here, is handed back untouched; each accumulator ends with
  the pieces stored into it, from the contents the step before left. The pieces themselves are found by running the body symbolically.
-/
import proofs.«148190_j1580547973492_1_alg».proof.Proof.Kernel.BodyFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) :
    Σ' (L6 : List (View.Piece (Elt F) S128x2048 .f32)) (LS0 : List (View.Piece (Elt F) S128x6144 .f32)), { LS1 : List (View.Piece (Elt F) S128x6144 .f32) //
      ∀ (xi6 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Region

end
-- ==== Proof.Kernel.BodyLast.lean ====
/-
  The kernel body run at the last step of the reduction axis (coordinate 7): this step's two products are added, then the biases, and the gates are formed and the row block of the result stored. The statement is a separation-logic triple on whole staging memrefs: the six inputs
  are handed back as found; the output's buffer ends with the pieces the body stored; each accumulator ends with
  the pieces stored into it, from the contents the step before left. The pieces themselves are found by running the body symbolically.
-/
import proofs.«148190_j1580547973492_1_alg».proof.Proof.Kernel.BodyMiddle

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) :
    Σ' (L6 : List (View.Piece (Elt F) S128x2048 .f32)) (LS0 : List (View.Piece (Elt F) S128x6144 .f32)), { LS1 : List (View.Piece (Elt F) S128x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Region

end
-- ==== Proof.Kernel.Frame.lean ====
/-
  The frame of the region: what the output window's buffer and the two accumulators hold after each of the 512 grid
  points (by recursion on the point: the accumulators are cleared where the reduction coordinate is 0 and otherwise
  continue from what the point before left; the output is stored where it is 7), the proof data of the launch, the
  body obligation at every point (one case per kind of point), and the run of @main with every window's array named.
-/
import proofs.«148190_j1580547973492_1_alg».proof.Proof.Kernel.BodyLast

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point of kind A leaves in the output's buffer: its pieces read back (none: a placeholder nothing consults, the window idle and not written back there). -/
def out0_A_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- The stores of a point of kind A into accumulator 0 cover it. -/
theorem scover0_A_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (y : S128x6144.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S128x6144.size (by sl_kernel_rfl) y

/-- What a point of kind A leaves in accumulator 0. -/
def sout0_A_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x6144 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- The stores of a point of kind A into accumulator 1 cover it. -/
theorem scover0_A_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (y : S128x6144.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S128x6144.size (by sl_kernel_rfl) y

/-- What a point of kind A leaves in accumulator 1. -/
def sout0_A_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x6144 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What a point of kind B leaves in the output's buffer: its pieces read back (none: a placeholder nothing consults, the window idle and not written back there). -/
def out0_B_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- The stores of a point of kind B into accumulator 0 cover it. -/
theorem scover0_B_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S128x6144.size (by sl_kernel_rfl) y

/-- What a point of kind B leaves in accumulator 0. -/
def sout0_B_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- The stores of a point of kind B into accumulator 1 cover it. -/
theorem scover0_B_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S128x6144.size (by sl_kernel_rfl) y

/-- What a point of kind B leaves in accumulator 1. -/
def sout0_B_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What a point of kind C leaves in the output's buffer: its pieces read back. -/
def out0_C_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- At the last reduction step the one store of the row block covers the output's buffer. -/
theorem cover0_C_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S128x2048.size (by sl_kernel_rfl) y

/-- The stores of a point of kind C into accumulator 0 cover it. -/
theorem scover0_C_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S128x6144.size (by sl_kernel_rfl) y

/-- What a point of kind C leaves in accumulator 0. -/
def sout0_C_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- The stores of a point of kind C into accumulator 1 cover it. -/
theorem scover0_C_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S128x6144.size (by sl_kernel_rfl) y

/-- What a point of kind C leaves in accumulator 1. -/
def sout0_C_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the buffers hold after each point -/

/-- The output's buffer and the two accumulators after a point. -/
abbrev Held (F : FTy → Type) [FloatOps F] : Type := Vec F S128x2048 .f32 × Vec F S128x6144 .f32 × Vec F S128x6144 .f32

/-- A point where the reduction starts: nothing is carried in. -/
def stepA (c : Dev nD) (t : Fin cfg0.N) (h0 : t.val % 8 = 0) (h1 : ¬t.val % 8 = 7) : Held F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
/-- A middle point: the accumulators continue from `p0`, `p1`. -/
def stepB (c : Dev nD) (t : Fin cfg0.N) (h0 : ¬t.val % 8 = 0) (h1 : ¬t.val % 8 = 7) (p0 p1 : Vec F S128x6144 .f32) : Held F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1)
/-- A point where the reduction ends: the accumulators continue from `p0`, `p1` and the output is stored. -/
def stepC (c : Dev nD) (t : Fin cfg0.N) (h0 : ¬t.val % 8 = 0) (h1 : t.val % 8 = 7) (p0 p1 : Vec F S128x6144 .f32) : Held F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1)

/-- What the three buffers hold after the point at position `n`, by recursion on `n`. -/
def outsAt0 (c : Dev nD) : (n : ℕ) → n < cfg0.N → Held F
  | 0, hn => stepA m c ⟨0, hn⟩ (Nat.zero_mod _) (by show ¬((0 : ℕ) % 8 = 7); decide)
  | n + 1, hn =>
    if h0 : (n + 1) % 8 = 0 then
      if h1 : (n + 1) % 8 = 7 then False.elim (by omega)
      else stepA m c ⟨n + 1, hn⟩ h0 h1
    else
      if h1 : (n + 1) % 8 = 7 then
        stepC m c ⟨n + 1, hn⟩ h0 h1 (outsAt0 c n (Nat.lt_of_succ_lt hn)).2.1 (outsAt0 c n (Nat.lt_of_succ_lt hn)).2.2
      else
        stepB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (both accumulators at anything);
    afterwards both accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The launch's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) (h : cond0_1 (grid0.coords t)) :
    (dats m 0 c).leavesExact 6 t = owns (c : Thread nD τ) (ms0_6 t) fullShare ((outsAt0 m c t.val t.isLt).1) := by
  unfold Dat.leavesExact; rw [liveAt0_6 t h, after0_6]

set_option maxHeartbeats 8000000 in
/-- The body at any point: the inputs' memrefs hold their blocks; the point's position on the reduction axis says which
    kind it is; the invariant hands the body the accumulators (at what the point before left, or at anything at the
    very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 512 := lt_of_lt_of_eq t.isLt (show cfg0.N = 512 from N_0)
  by_cases h0 : t.val % 8 = 0
  · by_cases h1 : t.val % 8 = 7
    · exfalso; omega
    · rw [Dat.leavesExact_idle (dats m 0 c) 6 t (idleAt0_6 t (fun h => h1 ((hcond0_1 t).mp h))) (noFlush0_6 t (fun h => h1 ((hcond0_1 t).mp h)))]
      rw [outsAt0_A m c t h0 h1]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves0_6 m c t ((hcond0_1 t).mpr h1)]
      rw [outsAt0_C m c t h0 h1]
      unfold stepC out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Region

end
-- ==== Proof.KernelIdeal.Entry.lean ====
/-
  The region of @main as the launch finds it: the arrays after the nine host operations that stack the three gates'
  weights and biases and narrow x (the contents every window's blocks are cut from), each window's block at a grid
  point, the two conditions of the body (first and last point of the reduction axis, the grid's second coordinate 0
  and 7) decided over the 64 × 8 grid, where the output window is idle, and the frame's post read off a run whose
  arrays are those contents. Stated at any float instance.
-/
import proofs.«148190_j1580547973492_1_alg».proof.Proof.Gen.KernelIdeal.Launch
import proofs.«148190_j1580547973492_1_alg».proof.Proof.Gen.KernelIdeal.Skeleton
import proofs.«148190_j1580547973492_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a run of the region -/

/-- A run ending with every window's array at what the proof data computes and every other unscoped buffer as the
    region found it leaves the fourteen argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's two conditions -/

/-- The first conditional (clear the two accumulators): the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (add the biases, form the gates, store the row block): the reduction coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last reduction step the body stores nothing into the output window and the pipeline does not write it back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

/-- One staging buffer of the output window, through which its contents are stated. -/
abbrev VO0_6 : View sig .tc .vmem S128x2048 .f32 := (Memref.whole cc0_stg6_0 : Memref sig .tc .vmem S128x2048 .f32).view
abbrev ms0_0 (t : Fin cfg0.N) : Memref sig .tc .vmem S128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
/-- The two accumulators (input-side and hidden-side pre-activations, 128 rows by the 6144 stacked columns). -/
abbrev scM0_0 : Memref sig .tc .vmem S128x6144 .f32 := Memref.whole cc0_scratch0
abbrev scM0_1 : Memref sig .tc .vmem S128x6144 .f32 := Memref.whole cc0_scratch1
abbrev VS0_0 : View sig .tc .vmem S128x6144 .f32 := scM0_0.view
abbrev VS0_1 : View sig .tc .vmem S128x6144 .f32 := scM0_1.view

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Region

end
-- ==== Proof.KernelIdeal.BodyFirst.lean ====
/-
  The kernel body run at the first step of the reduction axis (coordinate 0): both accumulators are cleared, then this step's two products are added. The statement is a separation-logic triple on whole staging memrefs: the six inputs
  are handed back as found; the output's buffer, into which nothing is stored here, is handed back untouched; each accumulator ends with
  the pieces stored into it, whatever it held. The pieces themselves are found by running the body symbolically.
-/
import proofs.«148190_j1580547973492_1_alg».proof.Proof.KernelIdeal.Entry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) :
    Σ' (L6 : List (View.Piece (Elt F) S128x2048 .f32)) (LS0 : List (View.Piece (Elt F) S128x6144 .f32)), { LS1 : List (View.Piece (Elt F) S128x6144 .f32) //
      ∀ (xi6 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Region

end
-- ==== Proof.KernelIdeal.BodyMiddle.lean ====
/-
  The kernel body run at a middle step of the reduction axis (coordinates 1 to 6): this step's two products are added to the accumulators. The statement is a separation-logic triple on whole staging memrefs: the six inputs
  are handed back as found; the output's buffer, into which nothing is stored here, is handed back untouched; each accumulator ends with
  the pieces stored into it, from the contents the step before left. The pieces themselves are found by running the body symbolically.
-/
import proofs.«148190_j1580547973492_1_alg».proof.Proof.KernelIdeal.BodyFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) :
    Σ' (L6 : List (View.Piece (Elt F) S128x2048 .f32)) (LS0 : List (View.Piece (Elt F) S128x6144 .f32)), { LS1 : List (View.Piece (Elt F) S128x6144 .f32) //
      ∀ (xi6 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Region

end
-- ==== Proof.KernelIdeal.BodyLast.lean ====
/-
  The kernel body run at the last step of the reduction axis (coordinate 7): this step's two products are added, then the biases, and the gates are formed and the row block of the result stored. The statement is a separation-logic triple on whole staging memrefs: the six inputs
  are handed back as found; the output's buffer ends with the pieces the body stored; each accumulator ends with
  the pieces stored into it, from the contents the step before left. The pieces themselves are found by running the body symbolically.
-/
import proofs.«148190_j1580547973492_1_alg».proof.Proof.KernelIdeal.BodyMiddle

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) :
    Σ' (L6 : List (View.Piece (Elt F) S128x2048 .f32)) (LS0 : List (View.Piece (Elt F) S128x6144 .f32)), { LS1 : List (View.Piece (Elt F) S128x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Region

end
-- ==== Proof.KernelIdeal.Frame.lean ====
/-
  The frame of the region: what the output window's buffer and the two accumulators hold after each of the 512 grid
  points (by recursion on the point: the accumulators are cleared where the reduction coordinate is 0 and otherwise
  continue from what the point before left; the output is stored where it is 7), the proof data of the launch, the
  body obligation at every point (one case per kind of point), and the run of @main with every window's array named.
-/
import proofs.«148190_j1580547973492_1_alg».proof.Proof.KernelIdeal.BodyLast

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point of kind A leaves in the output's buffer: its pieces read back (none: a placeholder nothing consults, the window idle and not written back there). -/
def out0_A_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- The stores of a point of kind A into accumulator 0 cover it. -/
theorem scover0_A_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (y : S128x6144.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S128x6144.size (by sl_kernel_rfl) y

/-- What a point of kind A leaves in accumulator 0. -/
def sout0_A_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x6144 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- The stores of a point of kind A into accumulator 1 cover it. -/
theorem scover0_A_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (y : S128x6144.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S128x6144.size (by sl_kernel_rfl) y

/-- What a point of kind A leaves in accumulator 1. -/
def sout0_A_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : Vec F S128x6144 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What a point of kind B leaves in the output's buffer: its pieces read back (none: a placeholder nothing consults, the window idle and not written back there). -/
def out0_B_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- The stores of a point of kind B into accumulator 0 cover it. -/
theorem scover0_B_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S128x6144.size (by sl_kernel_rfl) y

/-- What a point of kind B leaves in accumulator 0. -/
def sout0_B_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- The stores of a point of kind B into accumulator 1 cover it. -/
theorem scover0_B_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S128x6144.size (by sl_kernel_rfl) y

/-- What a point of kind B leaves in accumulator 1. -/
def sout0_B_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What a point of kind C leaves in the output's buffer: its pieces read back. -/
def out0_C_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- At the last reduction step the one store of the row block covers the output's buffer. -/
theorem cover0_C_6 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S128x2048.size (by sl_kernel_rfl) y

/-- The stores of a point of kind C into accumulator 0 cover it. -/
theorem scover0_C_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S128x6144.size (by sl_kernel_rfl) y

/-- What a point of kind C leaves in accumulator 0. -/
def sout0_C_0 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- The stores of a point of kind C into accumulator 1 cover it. -/
theorem scover0_C_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) (y : S128x6144.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S128x6144.size (by sl_kernel_rfl) y

/-- What a point of kind C leaves in accumulator 1. -/
def sout0_C_1 (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 : Vec F S128x6144 .f32) (xs1 : Vec F S128x6144 .f32) : Vec F S128x6144 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the buffers hold after each point -/

/-- The output's buffer and the two accumulators after a point. -/
abbrev Held (F : FTy → Type) [FloatOps F] : Type := Vec F S128x2048 .f32 × Vec F S128x6144 .f32 × Vec F S128x6144 .f32

/-- A point where the reduction starts: nothing is carried in. -/
def stepA (c : Dev nD) (t : Fin cfg0.N) (h0 : t.val % 8 = 0) (h1 : ¬t.val % 8 = 7) : Held F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
/-- A middle point: the accumulators continue from `p0`, `p1`. -/
def stepB (c : Dev nD) (t : Fin cfg0.N) (h0 : ¬t.val % 8 = 0) (h1 : ¬t.val % 8 = 7) (p0 p1 : Vec F S128x6144 .f32) : Held F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1)
/-- A point where the reduction ends: the accumulators continue from `p0`, `p1` and the output is stored. -/
def stepC (c : Dev nD) (t : Fin cfg0.N) (h0 : ¬t.val % 8 = 0) (h1 : t.val % 8 = 7) (p0 p1 : Vec F S128x6144 .f32) : Held F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1)

/-- What the three buffers hold after the point at position `n`, by recursion on `n`. -/
def outsAt0 (c : Dev nD) : (n : ℕ) → n < cfg0.N → Held F
  | 0, hn => stepA m c ⟨0, hn⟩ (Nat.zero_mod _) (by show ¬((0 : ℕ) % 8 = 7); decide)
  | n + 1, hn =>
    if h0 : (n + 1) % 8 = 0 then
      if h1 : (n + 1) % 8 = 7 then False.elim (by omega)
      else stepA m c ⟨n + 1, hn⟩ h0 h1
    else
      if h1 : (n + 1) % 8 = 7 then
        stepC m c ⟨n + 1, hn⟩ h0 h1 (outsAt0 c n (Nat.lt_of_succ_lt hn)).2.1 (outsAt0 c n (Nat.lt_of_succ_lt hn)).2.2
      else
        stepB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (both accumulators at anything);
    afterwards both accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The launch's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) (h : cond0_1 (grid0.coords t)) :
    (dats m 0 c).leavesExact 6 t = owns (c : Thread nD τ) (ms0_6 t) fullShare ((outsAt0 m c t.val t.isLt).1) := by
  unfold Dat.leavesExact; rw [liveAt0_6 t h, after0_6]

set_option maxHeartbeats 8000000 in
/-- The body at any point: the inputs' memrefs hold their blocks; the point's position on the reduction axis says which
    kind it is; the invariant hands the body the accumulators (at what the point before left, or at anything at the
    very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 512 := lt_of_lt_of_eq t.isLt (show cfg0.N = 512 from N_0)
  by_cases h0 : t.val % 8 = 0
  · by_cases h1 : t.val % 8 = 7
    · exfalso; omega
    · rw [Dat.leavesExact_idle (dats m 0 c) 6 t (idleAt0_6 t (fun h => h1 ((hcond0_1 t).mp h))) (noFlush0_6 t (fun h => h1 ((hcond0_1 t).mp h)))]
      rw [outsAt0_A m c t h0 h1]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves0_6 m c t ((hcond0_1 t).mpr h1)]
      rw [outsAt0_C m c t h0 h1]
      unfold stepC out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Region

end
-- ==== Proof.KernelIdeal.Pieces.lean ====
/-
  What each kind of grid point leaves in the two accumulators and in the output's buffer, as terms of the point's input
  blocks and of what the point before left: the last store through the whole buffer is what the buffer holds, and a
  load after such a store reads its value. At a first step the accumulators are 0 plus the step's products; at a later
  step, what was carried plus the products; at the last step the output is the blend of the gates formed from the
  accumulators plus their bias rows, read through the three column ranges [0, 2048), [2048, 4096), [4096, 6144).
-/
import proofs.«148190_j1580547973492_1_alg».proof.Proof.KernelIdeal.Frame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The hidden state's [128, 256] sub-block a step multiplies: columns 256 k … 256 k + 255 of the point's row block. -/
abbrev hidSub (i : grid0.Coords) (x1 : Vec F S128x2048 .f32) : Vec F S128x256 .f32 := View.ld x1 (Rect.unit (s := S128x2048) (k0_off1 i) S128x256.size (k0_off1_inb i))

theorem soutA0_eq (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : sout0_A_0 c i arg2 harg2 arg3 harg3 arg4 harg4 arg5 harg5 arg6 harg6 arg7 harg7 arg8 harg8 arg9 harg9 arg10 harg10 hc0 hc1 x0 x1 x2 x3 x4 x5 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  try sl_unfold_words
  rw [View.canon_cons_unit_zero hz]
  simp only [View.readCov_unit_zero (S := S128x6144) _ hz]
  simp only [View.readAt_eq_ld, harg2.read_unread, harg3.read_unread, harg4.read_unread, harg5.read_unread, harg6.read_unread, harg7.read_unread, harg9.read_unread, harg10.read_unread, View.ld_unit_zero (S := S128x256) hz, View.ld_unit_zero (S := S6144x256) hz, View.ld_unit_zero (S := S1x6144) hz, View.ld_unit_zero (S := S128x2048) hz, View.ld_unit_zero (S := S128x6144) hz]

theorem soutA1_eq (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) : sout0_A_1 c i arg2 harg2 arg3 harg3 arg4 harg4 arg5 harg5 arg6 harg6 arg7 harg7 arg8 harg8 arg9 harg9 arg10 harg10 hc0 hc1 x0 x1 x2 x3 x4 x5 = k0_pay4 (hidSub i x1) x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  try sl_unfold_words
  rw [View.canon_cons_unit_zero hz]
  simp only [View.readCov_unit_zero (S := S128x6144) _ hz]
  simp only [View.readAt_eq_ld, harg2.read_unread, harg3.read_unread, harg4.read_unread, harg5.read_unread, harg6.read_unread, harg7.read_unread, harg9.read_unread, harg10.read_unread, View.ld_unit_zero (S := S128x256) hz, View.ld_unit_zero (S := S6144x256) hz, View.ld_unit_zero (S := S1x6144) hz, View.ld_unit_zero (S := S128x2048) hz, View.ld_unit_zero (S := S128x6144) hz]
  rfl

theorem soutB0_eq (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 xs1 : Vec F S128x6144 .f32) : sout0_B_0 c i arg2 harg2 arg3 harg3 arg4 harg4 arg5 harg5 arg6 harg6 arg7 harg7 arg8 harg8 arg9 harg9 arg10 harg10 hc0 hc1 x0 x1 x2 x3 x4 x5 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S128x256) hz, View.ld_unit_zero (S := S6144x256) hz, View.ld_unit_zero (S := S1x6144) hz, View.ld_unit_zero (S := S128x2048) hz, View.ld_unit_zero (S := S128x6144) hz]

theorem soutB1_eq (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : ¬cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 xs1 : Vec F S128x6144 .f32) : sout0_B_1 c i arg2 harg2 arg3 harg3 arg4 harg4 arg5 harg5 arg6 harg6 arg7 harg7 arg8 harg8 arg9 harg9 arg10 harg10 hc0 hc1 x0 x1 x2 x3 x4 x5 xs0 xs1 = k0_pay4 (hidSub i x1) x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S128x256) hz, View.ld_unit_zero (S := S6144x256) hz, View.ld_unit_zero (S := S1x6144) hz, View.ld_unit_zero (S := S128x2048) hz, View.ld_unit_zero (S := S128x6144) hz]
  rfl

/-- The accumulators after the last step's products and bias rows. -/
abbrev lastAcc0 (x0 : Vec F S128x256 .bf16) (x2 : Vec F S6144x256 .bf16) (x4 : Vec F S1x6144 .f32) (xs0 : Vec F S128x6144 .f32) : FVec F S128x6144 .f32 :=
  k0_pay6 (k0_pay3 x0 x2 xs0) x4
abbrev lastAcc1 (i : grid0.Coords) (x1 : Vec F S128x2048 .f32) (x3 : Vec F S6144x256 .bf16) (x5 : Vec F S1x6144 .f32) (xs1 : Vec F S128x6144 .f32) : FVec F S128x6144 .f32 :=
  k0_pay7 (k0_pay4 (hidSub i x1) x3 xs1) x5

theorem outC6_eq (c : Dev nD) (i : grid0.Coords) (arg2 : Memref sig .tc .vmem S128x256 .bf16) (harg2 : arg2.IsWhole) (arg3 : Memref sig .tc .vmem S128x2048 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S128x2048 .f32) (harg8 : arg8.IsWhole) (arg9 : Memref sig .tc .vmem S128x6144 .f32) (harg9 : arg9.IsWhole) (arg10 : Memref sig .tc .vmem S128x6144 .f32) (harg10 : arg10.IsWhole) (hc0 : ¬cond0_0 i) (hc1 : cond0_1 i)
    (x0 : Vec F S128x256 .bf16) (x1 : Vec F S128x2048 .f32) (x2 : Vec F S6144x256 .bf16) (x3 : Vec F S6144x256 .bf16) (x4 : Vec F S1x6144 .f32) (x5 : Vec F S1x6144 .f32) (xs0 xs1 : Vec F S128x6144 .f32) : out0_C_6 c i arg2 harg2 arg3 harg3 arg4 harg4 arg5 harg5 arg6 harg6 arg7 harg7 arg8 harg8 arg9 harg9 arg10 harg10 hc0 hc1 x0 x1 x2 x3 x4 x5 xs0 xs1
    = k0_pay5 (k0_pay8 (View.ld (lastAcc0 x0 x2 x4 xs0) (Rect.unit (s := S128x6144) ![0, 2048] S128x2048.size inb_S128x6144_S128x2048_0_2048)) (View.ld (lastAcc1 i x1 x3 x5 xs1) (Rect.unit (s := S128x6144) ![0, 2048] S128x2048.size inb_S128x6144_S128x2048_0_2048)))
        (k0_pay9 (View.ld (lastAcc0 x0 x2 x4 xs0) (Rect.unit (s := S128x6144) ![0, 0] S128x2048.size inb_S128x6144_S128x2048_0_0)) (View.ld (lastAcc0 x0 x2 x4 xs0) (Rect.unit (s := S128x6144) ![0, 4096] S128x2048.size inb_S128x6144_S128x2048_0_4096))
          (View.ld (lastAcc1 i x1 x3 x5 xs1) (Rect.unit (s := S128x6144) ![0, 0] S128x2048.size inb_S128x6144_S128x2048_0_0)) (View.ld (lastAcc1 i x1 x3 x5 xs1) (Rect.unit (s := S128x6144) ![0, 4096] S128x2048.size inb_S128x6144_S128x2048_0_4096))) x1 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  try sl_unfold_words
  rw [View.canon_unit_zero hz]
  simp only [View.readCov_unit_zero (S := S128x6144) _ hz]
  simp only [View.readCov_eq_canon', View.canon_cons_unit_zero (S := S128x6144) hz]
  simp only [View.readAt_eq_ld, harg2.read_unread, harg3.read_unread, harg4.read_unread, harg5.read_unread, harg6.read_unread, harg7.read_unread, harg9.read_unread, harg10.read_unread, View.ld_unit_zero (S := S128x256) hz, View.ld_unit_zero (S := S6144x256) hz, View.ld_unit_zero (S := S1x6144) hz, View.ld_unit_zero (S := S128x2048) hz, View.ld_unit_zero (S := S128x6144) hz]
  rfl

end Cert.KernelIdeal.Region

end
-- ==== Proof.StepProduct.lean ====
/-
  One step's product, entry by entry, on the extended reals: the matrix unit's product of a [128, 256] block with a
  [6144, 256] block, both contracted along their second axis, into the zero accumulator is at (p, c) the plain sum
  ∑ₖ l[p,k] · r[c,k] over the 256 contracted positions.
-/
import proofs.«148190_j1580547973492_1_alg».proof.Proof.Gen.KernelIdeal
import Idealize.ShloMosaic.Lib.ValueIdx
import Idealize.ShloMosaic.PureOps.Ideal.Laws

noncomputable section

namespace Cert.KernelIdeal.StepProduct

open Cert.KernelIdeal Cert.KernelIdeal.Gen Idealize.ShloMosaic Idealize.ShloMosaic.ValueIdx

theorem lhs_0 (i : S128x6144.Idx) (q : dot_S128x256_S6144x256_S128x6144_1_1_0_0_n_n.contr.Idx) : (dot_S128x256_S6144x256_S128x6144_1_1_0_0_n_n.lhsIdx i q 0).val = (i 0).val := by
  unfold DotDims.lhsIdx
  rw [dif_neg (show ¬(0 : Fin S128x256.rank) ∈ dot_S128x256_S6144x256_S128x6144_1_1_0_0_n_n.lhsBatch by decide), dif_pos (show (0 : Fin S128x256.rank) ∈ dot_S128x256_S6144x256_S128x6144_1_1_0_0_n_n.lhsNonContracting by decide)]
  rfl
theorem lhs_1 (i : S128x6144.Idx) (q : dot_S128x256_S6144x256_S128x6144_1_1_0_0_n_n.contr.Idx) : (dot_S128x256_S6144x256_S128x6144_1_1_0_0_n_n.lhsIdx i q 1).val = (q ⟨0, by decide⟩).val :=
  dot_S128x256_S6144x256_S128x6144_1_1_0_0_n_n.lhsIdx_val_of_single rfl i q
theorem rhs_0 (i : S128x6144.Idx) (q : dot_S128x256_S6144x256_S128x6144_1_1_0_0_n_n.contr.Idx) : (dot_S128x256_S6144x256_S128x6144_1_1_0_0_n_n.rhsIdx i q 0).val = (i 1).val := by
  unfold DotDims.rhsIdx
  rw [dif_neg (show ¬(0 : Fin S6144x256.rank) ∈ dot_S128x256_S6144x256_S128x6144_1_1_0_0_n_n.rhsBatch by decide), dif_pos (show (0 : Fin S6144x256.rank) ∈ dot_S128x256_S6144x256_S128x6144_1_1_0_0_n_n.rhsNonContracting by decide)]
  rfl
theorem rhs_1 (i : S128x6144.Idx) (q : dot_S128x256_S6144x256_S128x6144_1_1_0_0_n_n.contr.Idx) : (dot_S128x256_S6144x256_S128x6144_1_1_0_0_n_n.rhsIdx i q 1).val = (q ⟨0, by decide⟩).val :=
  dot_S128x256_S6144x256_S128x6144_1_1_0_0_n_n.rhsIdx_val_of_single rfl i q

/-- The product into the zero accumulator at (p, c). -/
theorem matmul_zero_apply (l : FVec Ideal S128x256 .bf16) (r : FVec Ideal S6144x256 .bf16) (p : Fin 128) (c : Fin 6144) :
    matmul (F := Ideal) dot_S128x256_S6144x256_S128x6144_1_1_0_0_n_n none l r (constant (F := Ideal) S128x6144 .f32 0x00000000#32) (ix2 p c)
      = ∑ k : Fin 256, l (ix2 p k) * r (ix2 c k) := by
  show FloatOps.matmul dot_S128x256_S6144x256_S128x6144_1_1_0_0_n_n none l r (constant (F := Ideal) S128x6144 .f32 0x00000000#32) (ix2 p c) = _
  rw [Ideal.matmul_constant_zero_apply, ← Equiv.sum_comp (contrEquiv1 dot_S128x256_S6144x256_S128x6144_1_1_0_0_n_n 256 rfl rfl).symm]
  refine Finset.sum_congr rfl fun k _ => ?_
  have hk := contrEquiv1_symm_val dot_S128x256_S6144x256_S128x6144_1_1_0_0_n_n 256 rfl rfl k
  have el : dot_S128x256_S6144x256_S128x6144_1_1_0_0_n_n.lhsIdx (ix2 p c) ((contrEquiv1 dot_S128x256_S6144x256_S128x6144_1_1_0_0_n_n 256 rfl rfl).symm k) = ix2 p k := funext fun a => Fin.ext (by
    match a with
    | ⟨0, _⟩ => exact lhs_0 _ _
    | ⟨1, _⟩ => exact (lhs_1 _ _).trans hk)
  have er : dot_S128x256_S6144x256_S128x6144_1_1_0_0_n_n.rhsIdx (ix2 p c) ((contrEquiv1 dot_S128x256_S6144x256_S128x6144_1_1_0_0_n_n 256 rfl rfl).symm k) = ix2 c k := funext fun a => Fin.ext (by
    match a with
    | ⟨0, _⟩ => exact rhs_0 _ _
    | ⟨1, _⟩ => exact (rhs_1 _ _).trans hk)
  rw [el, er]

end Cert.KernelIdeal.StepProduct

end
-- ==== Proof.KernelIdeal.Payloads.lean ====
/-
  The values the body stores, read entry by entry on the extended reals.

  Clearing stores 0. A step stores acc + l · rᵀ: at (p, c) the accumulator's entry plus ∑ⱼ l[p,j] · r[c,j] over the
  step's 256 features (a change of float format is the identity here). The last step adds the bias row, b[0,c] at
  every row, and then forms, column by column, the two gates σ(·) and the candidate tanh(·) and blends them with h.
-/
import proofs.«148190_j1580547973492_1_alg».proof.Proof.Gen.KernelIdeal.Skeleton
import proofs.«148190_j1580547973492_1_alg».proof.Proof.StepProduct
import Idealize.ShloMosaic.Lib.Pipeline.Value
import Idealize.ShloMosaic.Lib.ValueLayout

noncomputable section

namespace Cert.KernelIdeal.CellValue

open Cert.KernelIdeal Cert.KernelIdeal.Gen Idealize.ShloMosaic Idealize.ShloMosaic.TcCoe Idealize.ShloMosaic.ValueIdx

/-- Clearing an accumulator stores zeros. -/
theorem pay1_at (y : S128x6144.Idx) : k0_pay1 (F := Ideal) y = 0 := by
  unfold k0_pay1
  simp only [shapeCast_self]
  exact Ideal.ofBits_zero_f32

theorem pay2_at (y : S128x6144.Idx) : k0_pay2 (F := Ideal) y = 0 := by
  unfold k0_pay2
  simp only [shapeCast_self]
  exact Ideal.ofBits_zero_f32

/-- The input-side step: the accumulator plus the block product. -/
theorem pay3_at (v8 : Vec Ideal S128x256 .bf16) (v10 : Vec Ideal S6144x256 .bf16) (v16 : Vec Ideal S128x6144 .f32)
    (p : Fin 128) (cc : Fin 6144) :
    k0_pay3 (F := Ideal) v8 v10 v16 (ix2 p cc) = v16 (ix2 p cc) + ∑ j : Fin 256, v8 (ix2 p j) * v10 (ix2 cc j) := by
  unfold k0_pay3
  simp only [shapeCast_self]
  rw [addf_apply, StepProduct.matmul_zero_apply]

/-- The hidden-side step: the same, the left block narrowed first (the identity on the extended reals). -/
theorem pay4_at (v6 : Vec Ideal S128x256 .f32) (v13 : Vec Ideal S6144x256 .bf16) (v21 : Vec Ideal S128x6144 .f32)
    (p : Fin 128) (cc : Fin 6144) :
    k0_pay4 (F := Ideal) v6 v13 v21 (ix2 p cc) = v21 (ix2 p cc) + ∑ j : Fin 256, v6 (ix2 p j) * v13 (ix2 cc j) := by
  unfold k0_pay4
  simp only [shapeCast_self]
  rw [addf_apply, StepProduct.matmul_zero_apply]
  rfl

/-- Adding the bias row. -/
theorem pay6_at (v29 : Vec Ideal S128x6144 .f32) (v30 : Vec Ideal S1x6144 .f32) (p : Fin 128) (cc : Fin 6144) :
    k0_pay6 (F := Ideal) v29 v30 (ix2 p cc) = v29 (ix2 p cc) + v30 (ix2 (0 : Fin 1) cc) := by
  unfold k0_pay6
  simp only [shapeCast_self]
  rw [addf_apply, broadcastTo_1b_ab_apply]

theorem pay7_at (v38 : Vec Ideal S128x6144 .f32) (v39 : Vec Ideal S1x6144 .f32) (p : Fin 128) (cc : Fin 6144) :
    k0_pay7 (F := Ideal) v38 v39 (ix2 p cc) = v38 (ix2 p cc) + v39 (ix2 (0 : Fin 1) cc) := by
  unfold k0_pay7
  simp only [shapeCast_self]
  rw [addf_apply, broadcastTo_1b_ab_apply]

/-- The update gate, the candidate and the blend, entry by entry. -/
theorem pay8_at (v48 v51 : Vec Ideal S128x2048 .f32) (y : S128x2048.Idx) :
    k0_pay8 (F := Ideal) v48 v51 y = Ideal.logistic (v48 y + v51 y) := rfl

theorem pay9_at (v47 v49 v50 v52 : Vec Ideal S128x2048 .f32) (y : S128x2048.Idx) :
    k0_pay9 (F := Ideal) v47 v49 v50 v52 y = Ideal.tanh (v49 y + Ideal.logistic (v47 y + v50 y) * v52 y) := rfl

theorem pay5_at (v56 v59 : FVec Ideal S128x2048 .f32) (v60 : Vec Ideal S128x2048 .f32) (y : S128x2048.Idx) :
    k0_pay5 (F := Ideal) v56 v59 v60 y = v59 y + v56 y * (v60 y - v59 y) := rfl

end Cert.KernelIdeal.CellValue

end
-- ==== Proof.LibNary3.lean ====
/-
  A host operation with three operands named by a literal family, read at its result.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over a LITERAL family of three references (a concatenation of three operands), with
    each operand's contents taken at its own reference — `Fin.cons (F x) (Fin.cons (F a) (Fin.cons (F b) _))` in place of
    `fun k => F (![x, a, b] k)` — so that the operands' own contents can go on being rewritten: under the binder the
    reference `![x, a, b] k` is no literal, and no result lemma applies to it. The three-operand companion of the
    library's four-operand lemma. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KernelIdeal.Arrays.lean ====
/-
  The arrays the region's windows are cut from, as terms of the launch contents: x narrowed; the two stacked weights
  (the three gates' [2048, 2048] weights joined along the rows) narrowed; the two stacked biases (the three gates'
  [2048] biases joined) viewed as one row [1, 6144].
-/
import proofs.«148190_j1580547973492_1_alg».proof.Proof.KernelIdeal.Entry
import proofs.«148190_j1580547973492_1_alg».proof.Proof.LibNary3

noncomputable section

namespace Cert.KernelIdeal.Region

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The stacked input-side and hidden-side weights and biases at launch. -/
abbrev stackWi (c : Dev nD) : FVec F S6144x2048 .f32 := concatenate S6144x2048 0 [⟨S2048x2048, m (c, Proc.devRef .tc main_arg2)⟩, ⟨S2048x2048, m (c, Proc.devRef .tc main_arg6)⟩, ⟨S2048x2048, m (c, Proc.devRef .tc main_arg10)⟩] concatenates_S2048x2048_S2048x2048_S2048x2048_S6144x2048_d0
abbrev stackWh (c : Dev nD) : FVec F S6144x2048 .f32 := concatenate S6144x2048 0 [⟨S2048x2048, m (c, Proc.devRef .tc main_arg4)⟩, ⟨S2048x2048, m (c, Proc.devRef .tc main_arg8)⟩, ⟨S2048x2048, m (c, Proc.devRef .tc main_arg12)⟩] concatenates_S2048x2048_S2048x2048_S2048x2048_S6144x2048_d0
abbrev stackBi (c : Dev nD) : FVec F S6144 .f32 := concatenate S6144 0 [⟨S2048, m (c, Proc.devRef .tc main_arg3)⟩, ⟨S2048, m (c, Proc.devRef .tc main_arg7)⟩, ⟨S2048, m (c, Proc.devRef .tc main_arg11)⟩] concatenates_S2048_S2048_S2048_S6144_d0
abbrev stackBh (c : Dev nD) : FVec F S6144 .f32 := concatenate S6144 0 [⟨S2048, m (c, Proc.devRef .tc main_arg5)⟩, ⟨S2048, m (c, Proc.devRef .tc main_arg9)⟩, ⟨S2048, m (c, Proc.devRef .tc main_arg13)⟩] concatenates_S2048_S2048_S2048_S6144_d0

theorem V_main_v8 (c : Dev nD) : (V m c main_v8 : FVec F S8192x2048 .bf16) = truncf .bf16 (m (c, Proc.devRef .tc main_arg0) : FVec F S8192x2048 .f32) bitsLt_bf16_f32 := by
  dsimp only [V, hostOps0]
  simp only [StableHlo.after_cons, StableHlo.after_nil]
  repeat (first
    | rw [StableHlo.nary3_result] | rw [StableHlo.unary_result] | rw [StableHlo.reshape_result]
    | (rw [StableHlo.nary_result_ne]; rotate_left; decide)
    | (rw [StableHlo.unary_result_ne]; rotate_left; decide)
    | (rw [StableHlo.reshape_result_ne]; rotate_left; decide))

theorem V_main_v1 (c : Dev nD) : (V m c main_v1 : FVec F S6144x2048 .bf16) = truncf .bf16 (stackWi m c) bitsLt_bf16_f32 := by
  dsimp only [V, hostOps0]
  simp only [StableHlo.after_cons, StableHlo.after_nil]
  repeat (first
    | rw [StableHlo.nary3_result] | rw [StableHlo.unary_result] | rw [StableHlo.reshape_result]
    | (rw [StableHlo.nary_result_ne]; rotate_left; decide)
    | (rw [StableHlo.unary_result_ne]; rotate_left; decide)
    | (rw [StableHlo.reshape_result_ne]; rotate_left; decide))
  rfl

theorem V_main_v3 (c : Dev nD) : (V m c main_v3 : FVec F S6144x2048 .bf16) = truncf .bf16 (stackWh m c) bitsLt_bf16_f32 := by
  dsimp only [V, hostOps0]
  simp only [StableHlo.after_cons, StableHlo.after_nil]
  repeat (first
    | rw [StableHlo.nary3_result] | rw [StableHlo.unary_result] | rw [StableHlo.reshape_result]
    | (rw [StableHlo.nary_result_ne]; rotate_left; decide)
    | (rw [StableHlo.unary_result_ne]; rotate_left; decide)
    | (rw [StableHlo.reshape_result_ne]; rotate_left; decide))
  rfl

theorem V_main_v5 (c : Dev nD) : (V m c main_v5 : FVec F S1x6144 .f32) = shapeCast S1x6144 (stackBi m c) shapeCasts_S6144_S1x6144 := by
  dsimp only [V, hostOps0]
  simp only [StableHlo.after_cons, StableHlo.after_nil]
  repeat (first
    | rw [StableHlo.nary3_result] | rw [StableHlo.unary_result] | rw [StableHlo.reshape_result]
    | (rw [StableHlo.nary_result_ne]; rotate_left; decide)
    | (rw [StableHlo.unary_result_ne]; rotate_left; decide)
    | (rw [StableHlo.reshape_result_ne]; rotate_left; decide))
  rfl

theorem V_main_v7 (c : Dev nD) : (V m c main_v7 : FVec F S1x6144 .f32) = shapeCast S1x6144 (stackBh m c) shapeCasts_S6144_S1x6144 := by
  dsimp only [V, hostOps0]
  simp only [StableHlo.after_cons, StableHlo.after_nil]
  repeat (first
    | rw [StableHlo.nary3_result] | rw [StableHlo.unary_result] | rw [StableHlo.reshape_result]
    | (rw [StableHlo.nary_result_ne]; rotate_left; decide)
    | (rw [StableHlo.unary_result_ne]; rotate_left; decide)
    | (rw [StableHlo.reshape_result_ne]; rotate_left; decide))
  rfl

end Cert.KernelIdeal.Region

end
-- ==== Proof.KernelIdeal.Blocks.lean ====
/-
  The windows' blocks as entries of their arrays: at grid point t = 8 i + k (row block i of 64, reduction step k of 8)
  window 0 cuts rows 128 i .. 128 i + 127 and columns 256 k .. 256 k + 255 of x narrowed; window 1 rows
  128 i .. 128 i + 127 of h; windows 2 and 3 columns 256 k .. 256 k + 255 of the stacked weights; windows 4 and 5 the
  whole bias rows; window 6 rows 128 i .. 128 i + 127 of the result, written back at the points with k = 7, whose
  blocks together cover the result.
-/
import proofs.«148190_j1580547973492_1_alg».proof.Proof.KernelIdeal.Arrays
import Idealize.ShloMosaic.Lib.Pipeline.Value
import Idealize.ShloMosaic.Lib.ValueIdx
import Idealize.ShloMosaic.Lib.ValueLayout

noncomputable section

namespace Cert.KernelIdeal.Region

open Cert.KernelIdeal Cert.KernelIdeal.Gen
open Idealize.ShloMosaic Idealize.ShloMosaic.TcCoe Idealize.SL.Sem

section Blocks

variable {F : FTy → Type} [FloatOps F]
variable (m : (ℓ : Loc nD τ sig) → Buf (Elt F) ℓ)

/-! ## The block index of each window at each point -/

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val / 8 ∧ win0_6.index t 1 = 0 :=
  (by decide +kernel : ∀ t : Fin grid0.N, win0_6.index t 0 = t.val / 8 ∧ win0_6.index t 1 = 0)

/-! ## The input windows' blocks, entry by entry -/

/-- Window 0's block at point t is rows 128 (t / 8) .. and columns 256 (t % 8) .. of x narrowed. -/
theorem iblk0_apply (c : Dev nD) (t : Fin cfg0.N) (y : S128x256.Idx) (k : S8192x2048.Idx)
    (hk0 : (k 0).val = 128 * (t.val / 8) + (y 0).val) (hk1 : (k 1).val = 256 * (t.val % 8) + (y 1).val) :
    (iblk m c 0 t : Vec F S128x256 .bf16) y = (V m c main_v8 : S8192x2048.Idx → Elt F .bf16) k := by
  have hi := idx0 t
  unfold iblk
  rw [View.read_apply]
  show V m c main_v8 _ = V m c main_v8 _
  congr 1
  funext a
  apply Fin.ext
  match a with
  | ⟨0, _⟩ => show win0_0.index t 0 * 128 + 1 * (y 0).val = (k 0).val; rw [hi.1, hk0]; omega
  | ⟨1, _⟩ => show win0_0.index t 1 * 256 + 1 * (y 1).val = (k 1).val; rw [hi.2, hk1]; omega

/-- Window 1's block at point t is rows 128 (t / 8) .. of h. -/
theorem iblk1_apply (c : Dev nD) (t : Fin cfg0.N) (y : S128x2048.Idx) (k : S8192x2048.Idx)
    (hk0 : (k 0).val = 128 * (t.val / 8) + (y 0).val) (hk1 : (k 1).val = (y 1).val) :
    (iblk m c 1 t : Vec F S128x2048 .f32) y = (V m c main_arg1 : S8192x2048.Idx → Elt F .f32) k := by
  have hi := idx1 t
  unfold iblk
  rw [View.read_apply]
  show V m c main_arg1 _ = V m c main_arg1 _
  congr 1
  funext a
  apply Fin.ext
  match a with
  | ⟨0, _⟩ => show win0_1.index t 0 * 128 + 1 * (y 0).val = (k 0).val; rw [hi.1, hk0]; omega
  | ⟨1, _⟩ => show win0_1.index t 1 * 2048 + 1 * (y 1).val = (k 1).val; rw [hi.2, hk1]; omega

/-- Window 2's block at point t is columns 256 (t % 8) .. of the stacked input-side weight narrowed. -/
theorem iblk2_apply (c : Dev nD) (t : Fin cfg0.N) (y : S6144x256.Idx) (k : S6144x2048.Idx)
    (hk0 : (k 0).val = (y 0).val) (hk1 : (k 1).val = 256 * (t.val % 8) + (y 1).val) :
    (iblk m c 2 t : Vec F S6144x256 .bf16) y = (V m c main_v1 : S6144x2048.Idx → Elt F .bf16) k := by
  have hi := idx2 t
  unfold iblk
  rw [View.read_apply]
  show V m c main_v1 _ = V m c main_v1 _
  congr 1
  funext a
  apply Fin.ext
  match a with
  | ⟨0, _⟩ => show win0_2.index t 0 * 6144 + 1 * (y 0).val = (k 0).val; rw [hi.1, hk0]; omega
  | ⟨1, _⟩ => show win0_2.index t 1 * 256 + 1 * (y 1).val = (k 1).val; rw [hi.2, hk1]; omega

/-- Window 3's block at point t is columns 256 (t % 8) .. of the stacked hidden-side weight narrowed. -/
theorem iblk3_apply (c : Dev nD) (t : Fin cfg0.N) (y : S6144x256.Idx) (k : S6144x2048.Idx)
    (hk0 : (k 0).val = (y 0).val) (hk1 : (k 1).val = 256 * (t.val % 8) + (y 1).val) :
    (iblk m c 3 t : Vec F S6144x256 .bf16) y = (V m c main_v3 : S6144x2048.Idx → Elt F .bf16) k := by
  have hi := idx3 t
  unfold iblk
  rw [View.read_apply]
  show V m c main_v3 _ = V m c main_v3 _
  congr 1
  funext a
  apply Fin.ext
  match a with
  | ⟨0, _⟩ => show win0_3.index t 0 * 6144 + 1 * (y 0).val = (k 0).val; rw [hi.1, hk0]; omega
  | ⟨1, _⟩ => show win0_3.index t 1 * 256 + 1 * (y 1).val = (k 1).val; rw [hi.2, hk1]; omega

/-- Window 4's block at every point is the whole input-side bias row. -/
theorem iblk4_apply (c : Dev nD) (t : Fin cfg0.N) (y : S1x6144.Idx) :
    (iblk m c 4 t : Vec F S1x6144 .f32) y = (V m c main_v5 : S1x6144.Idx → Elt F .f32) y := by
  have hi := idx4 t
  unfold iblk
  rw [View.read_apply]
  show V m c main_v5 _ = V m c main_v5 _
  congr 1
  funext a
  apply Fin.ext
  match a with
  | ⟨0, _⟩ => show win0_4.index t 0 * 1 + 1 * (y 0).val = (y 0).val; rw [hi.1]; omega
  | ⟨1, _⟩ => show win0_4.index t 1 * 6144 + 1 * (y 1).val = (y 1).val; rw [hi.2]; omega

/-- Window 5's block at every point is the whole hidden-side bias row. -/
theorem iblk5_apply (c : Dev nD) (t : Fin cfg0.N) (y : S1x6144.Idx) :
    (iblk m c 5 t : Vec F S1x6144 .f32) y = (V m c main_v7 : S1x6144.Idx → Elt F .f32) y := by
  have hi := idx5 t
  unfold iblk
  rw [View.read_apply]
  show V m c main_v7 _ = V m c main_v7 _
  congr 1
  funext a
  apply Fin.ext
  match a with
  | ⟨0, _⟩ => show win0_5.index t 0 * 1 + 1 * (y 0).val = (y 0).val; rw [hi.1]; omega
  | ⟨1, _⟩ => show win0_5.index t 1 * 6144 + 1 * (y 1).val = (y 1).val; rw [hi.2]; omega

end Blocks

section Arrays

variable {F : FTy → Type} [FloatOps F]
variable (m : (ℓ : Loc nD τ sig) → Buf (Elt F) ℓ)

/-! ## The bias rows: the stacked biases viewed as one row -/

/-- The input-side bias row at column cc is the stacked input-side bias at cc. -/
theorem V_main_v5_apply (c : Dev nD) (cc : Fin 6144) :
    (V m c main_v5 : S1x6144.Idx → Elt F .f32) (ValueIdx.ix2 0 cc) = stackBi m c (ValueIdx.ix1 cc) := by
  rw [V_main_v5]
  refine shapeCast_apply _ _ _ (ValueIdx.ix1 cc) ?_
  rw [Shape.rowMajor_val_one, Shape.rowMajor_val_two]
  show cc.val = 0 * 6144 + cc.val
  omega

/-- The hidden-side bias row at column cc is the stacked hidden-side bias at cc. -/
theorem V_main_v7_apply (c : Dev nD) (cc : Fin 6144) :
    (V m c main_v7 : S1x6144.Idx → Elt F .f32) (ValueIdx.ix2 0 cc) = stackBh m c (ValueIdx.ix1 cc) := by
  rw [V_main_v7]
  refine shapeCast_apply _ _ _ (ValueIdx.ix1 cc) ?_
  rw [Shape.rowMajor_val_one, Shape.rowMajor_val_two]
  show cc.val = 0 * 6144 + cc.val
  omega

end Arrays

section AtIdeal

variable (m : (ℓ : Loc nD τ sig) → Buf (Elt Ideal) ℓ)

/-! ## The narrowed arrays on the extended reals: a change of format changes no entry -/

/-- x narrowed is x. -/
theorem V_main_v8_apply (c : Dev nD) (k : S8192x2048.Idx) :
    (V m c main_v8 : S8192x2048.Idx → Elt Ideal .bf16) k = (m (c, Proc.devRef .tc main_arg0) : S8192x2048.Idx → Elt Ideal .f32) k :=
  (congrFun (V_main_v8 m c) k).trans (ValueIdx.truncf_apply _ _ k)

/-- The stacked input-side weight narrowed is the stacked input-side weight. -/
theorem V_main_v1_apply (c : Dev nD) (k : S6144x2048.Idx) :
    (V m c main_v1 : S6144x2048.Idx → Elt Ideal .bf16) k = stackWi m c k :=
  (congrFun (V_main_v1 m c) k).trans (ValueIdx.truncf_apply _ _ k)

/-- The stacked hidden-side weight narrowed is the stacked hidden-side weight. -/
theorem V_main_v3_apply (c : Dev nD) (k : S6144x2048.Idx) :
    (V m c main_v3 : S6144x2048.Idx → Elt Ideal .bf16) k = stackWh m c k :=
  (congrFun (V_main_v3 m c) k).trans (ValueIdx.truncf_apply _ _ k)

end AtIdeal

section Output

variable {F : FTy → Type} [FloatOps F]

/-! ## The output window: its blocks and their cover of the result -/

/-- The output window's block has the full size at every point: 128 rows, 2048 columns. -/
theorem xsize6 : ∀ t : Fin cfg0.N, win0_6.xsize (grid0.coords t) 0 = 128 ∧ win0_6.xsize (grid0.coords t) 1 = 2048 :=
  (by decide +kernel : ∀ t : Fin grid0.N, win0_6.xsize (grid0.coords t) 0 = 128 ∧ win0_6.xsize (grid0.coords t) 1 = 2048)

/-- An array read through window 6's block at point t is its rows 128 (t / 8) .. . -/
theorem blk6_read (G : S8192x2048.Idx → Elt F .f32) (t : Fin cfg0.N) (y : S128x2048.Idx) (k : S8192x2048.Idx)
    (hk0 : (k 0).val = 128 * (t.val / 8) + (y 0).val) (hk1 : (k 1).val = (y 1).val) :
    (((cfg0.win 6).blk t).view.read (Elt F) G : S128x2048.Idx → Elt F .f32) y = G k := by
  have hi := idx6 t
  rw [View.read_apply]
  show G _ = G _
  congr 1
  funext a
  apply Fin.ext
  match a with
  | ⟨0, _⟩ => show win0_6.index t 0 * 128 + 1 * (y 0).val = (k 0).val; rw [hi.1, hk0]; omega
  | ⟨1, _⟩ => show win0_6.index t 1 * 2048 + 1 * (y 1).val = (k 1).val; rw [hi.2, hk1]; omega

/-- Every entry of the result lies in the block of a point at which the output window is written back: entry (r, q) in
    that of point 8 (r / 128) + 7. -/
theorem cover6 (i : S8192x2048.Idx) :
    ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have hN : cfg0.N = 512 := N_0
  let t : Fin cfg0.N := ⟨8 * ((i 0).val / 128) + 7, by rw [hN]; omega⟩
  have ht : t.val = 8 * ((i 0).val / 128) + 7 := rfl
  refine ⟨t, (flush0_6 t).mpr (by rw [ht]; omega), ?_⟩
  show i ∈ ((View.whole main_v9).slice (win0_6.rect t)).set
  rw [View.set_slice_whole, Rect.mem_set_unit]
  intro a
  have hi := idx6 t
  have hx := xsize6 t
  match a with
  | ⟨0, _⟩ =>
    show win0_6.index t 0 * 128 ≤ (i 0 : Nat) ∧ (i 0 : Nat) < win0_6.index t 0 * 128 + win0_6.xsize (grid0.coords t) 0
    rw [hi.1, hx.1, ht]; omega
  | ⟨1, _⟩ =>
    show win0_6.index t 1 * 2048 ≤ (i 1 : Nat) ∧ (i 1 : Nat) < win0_6.index t 1 * 2048 + win0_6.xsize (grid0.coords t) 1
    rw [hi.2, hx.2]; omega

end Output

end Cert.KernelIdeal.Region

end
-- ==== Proof.CellSpec.lean ====
/-
  The gated recurrent cell as one function of its arrays, on the extended reals.

  With x, h : [8192, 2048], stacked weights Wi, Wh : [6144, 2048] (rows 0..2047 the reset gate's, 2048..4095 the
  update gate's, 4096..6143 the candidate's) and stacked biases bi, bh : [6144], put
      gate x W b (r, c) = (∑ₖ x[r,k] · W[c,k]) + b[c].
  Then at row r and column q
      ρ = σ (gate x Wi bi (r, q)        + gate h Wh bh (r, q)),
      ζ = σ (gate x Wi bi (r, 2048 + q) + gate h Wh bh (r, 2048 + q)),
      ν = tanh (gate x Wi bi (r, 4096 + q) + ρ · gate h Wh bh (r, 4096 + q)),
      cell (r, q) = ν + ζ · (h[r,q] − ν),
  where σ y = 1 / (1 + e^(−y)). Nothing here assumes the entries finite: the definition is read with the extended
  reals' own sum, product and difference.
-/
import Idealize.ShloMosaic.PureOps.Ideal
import Idealize.ShloMosaic.Lib.ValueIdx

noncomputable section

namespace Cert.GruCell

open Idealize.ShloMosaic Idealize.ShloMosaic.ValueIdx

/-- The shapes of the batch arrays, of a stacked weight and of a stacked bias. -/
abbrev SBatch : Shape := ⟨2, ![8192, 2048]⟩
abbrev SStack : Shape := ⟨2, ![6144, 2048]⟩
abbrev SBias : Shape := ⟨1, ![6144]⟩

/-- Column q of the reset gate, of the update gate and of the candidate among the 6144 stacked columns. -/
def colR (q : Fin 2048) : Fin 6144 := ⟨q.val, by omega⟩
def colZ (q : Fin 2048) : Fin 6144 := ⟨2048 + q.val, by omega⟩
def colN (q : Fin 2048) : Fin 6144 := ⟨4096 + q.val, by omega⟩

/-- One entry of the affine map x ↦ x · Wᵀ + b: row r of x against row c of W, plus b at c. -/
def gate (x : SBatch.Idx → EReal) (W : SStack.Idx → EReal) (b : SBias.Idx → EReal) (r : Fin 8192) (c : Fin 6144) : EReal :=
  (∑ k : Fin 2048, x (ix2 r k) * W (ix2 c k)) + b (ix1 c)

/-- The cell at row r and column q. -/
def cellAt (x h : SBatch.Idx → EReal) (Wi Wh : SStack.Idx → EReal) (bi bh : SBias.Idx → EReal) (r : Fin 8192) (q : Fin 2048) : EReal :=
  let rg := Ideal.logistic (gate x Wi bi r (colR q) + gate h Wh bh r (colR q))
  let zg := Ideal.logistic (gate x Wi bi r (colZ q) + gate h Wh bh r (colZ q))
  let ng := Ideal.tanh (gate x Wi bi r (colN q) + rg * gate h Wh bh r (colN q))
  ng + zg * (h (ix2 r q) - ng)

/-- The cell as an array. -/
def cell (x h : SBatch.Idx → EReal) (Wi Wh : SStack.Idx → EReal) (bi bh : SBias.Idx → EReal) : SBatch.Idx → EReal :=
  fun j => cellAt x h Wi Wh bi bh (j 0) (j 1)

theorem cell_ix2 (x h : SBatch.Idx → EReal) (Wi Wh : SStack.Idx → EReal) (bi bh : SBias.Idx → EReal) (r : Fin 8192) (q : Fin 2048) :
    cell x h Wi Wh bi bh (ix2 r q) = cellAt x h Wi Wh bi bh r q := rfl

end Cert.GruCell

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.CellAccum.lean ====
/-
  The reduction over the 2048 shared features cut into 8 runs of 256, on the extended reals.

  For a row block b (128 rows) and a run s (256 features), stepProd x W b s (p, c) = ∑ⱼ x[128 b + p, 256 s + j] · W[c, 256 s + j]
  is what one grid step adds to an accumulator entry. The running total after step k is partialSum … k, which starts
  as 0 + stepProd … 0 and grows by one stepProd per step; after the eighth step it is the whole contraction
  ∑ₖ x[128 b + p, k] · W[c, k]: addition on the extended reals is commutative and associative, so cutting the sum
  into runs needs no finiteness.
-/
import proofs.«148190_j1580547973492_1_alg».proof.Proof.CellSpec
import proofs.«148190_j1580547973492_1_alg».proof.Proof.LibBlockSum

noncomputable section

namespace Cert.GruCell

open Idealize.ShloMosaic Idealize.ShloMosaic.ValueIdx

/-- Row p of row block b, and feature j of run s (total functions: reduced modulo the extents, which changes nothing
    for b < 64 and s < 8). -/
def rowOf (b : ℕ) (p : Fin 128) : Fin 8192 := ⟨(128 * b + p.val) % 8192, Nat.mod_lt _ (by decide)⟩
def featOf (s : ℕ) (j : Fin 256) : Fin 2048 := ⟨(256 * s + j.val) % 2048, Nat.mod_lt _ (by decide)⟩

/-- What step s adds to the accumulator entry (p, c) of row block b. -/
def stepProd (x : SBatch.Idx → EReal) (W : SStack.Idx → EReal) (b s : ℕ) (p : Fin 128) (c : Fin 6144) : EReal :=
  ∑ j : Fin 256, x (ix2 (rowOf b p) (featOf s j)) * W (ix2 c (featOf s j))

/-- The accumulator entry after steps 0, …, k. -/
def partialSum (x : SBatch.Idx → EReal) (W : SStack.Idx → EReal) (b k : ℕ) (p : Fin 128) (c : Fin 6144) : EReal :=
  ∑ s ∈ Finset.range (k + 1), stepProd x W b s p c

theorem partialSum_zero (x : SBatch.Idx → EReal) (W : SStack.Idx → EReal) (b : ℕ) (p : Fin 128) (c : Fin 6144) :
    partialSum x W b 0 p c = 0 + stepProd x W b 0 p c := by
  unfold partialSum; rw [Finset.sum_range_one, zero_add]

theorem partialSum_succ (x : SBatch.Idx → EReal) (W : SStack.Idx → EReal) (b k : ℕ) (p : Fin 128) (c : Fin 6144) :
    partialSum x W b (k + 1) p c = partialSum x W b k p c + stepProd x W b (k + 1) p c := by
  unfold partialSum; rw [Finset.sum_range_succ]

/-- After the eighth step the accumulator entry is the whole contraction. -/
theorem partialSum_full (x : SBatch.Idx → EReal) (W : SStack.Idx → EReal) (b : ℕ) (p : Fin 128) (c : Fin 6144) :
    partialSum x W b 7 p c = ∑ k : Fin 2048, x (ix2 (rowOf b p) k) * W (ix2 c k) := by
  unfold partialSum stepProd
  rw [Finset.sum_range (n := 8) (fun s => ∑ j : Fin 256, x (ix2 (rowOf b p) (featOf s j)) * W (ix2 c (featOf s j)))]
  have h := Cert.Lib.BlockSum.sum_blocks 8 256 (fun k : Fin (8 * 256) => x (ix2 (rowOf b p) k) * W (ix2 c k))
  refine Eq.trans ?_ h.symm
  refine Finset.sum_congr rfl fun s _ => Finset.sum_congr rfl fun j _ => ?_
  have e : featOf s.val j = (Cert.Lib.BlockSum.at_ s j : Fin (8 * 256)) := Fin.ext (by
    show (256 * s.val + j.val) % 2048 = s.val * 256 + j.val
    have := s.isLt; have := j.isLt; omega)
  rw [e]

end Cert.GruCell

end
-- ==== Proof.LibRectLoad.lean ====
/-
  A load through a unit-stride rectangle, read at an index: entry y of the loaded box is the array's entry at
  offset + y, coordinate by coordinate.
-/
import Idealize.ShloMosaic.Lib.Pipeline.FrameBody

noncomputable section

namespace Idealize.ShloMosaic.View

/-- Entry `y` of a box loaded through the unit-stride rectangle at offsets `off` is the array at `k`, where `k` is
    `off + y` on every axis. -/
theorem ld_unit_at {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

end Idealize.ShloMosaic.View

end
-- ==== Proof.KernelIdeal.Steps.lean ====
/-
  What one grid step contributes, in the words of the cell's specification: at point t = 8 b + s (row block b, run s)
  the input side's block product is the run's share stepProd x Wi b s of the contraction, the hidden side's is
  stepProd h Wh b s (h's 256 columns at offset 256 s against the stacked hidden-side weight's block), the bias rows'
  blocks are the stacked biases, and h's row block is h at rows 128 b .. 128 b + 127.
-/
import proofs.«148190_j1580547973492_1_alg».proof.Proof.KernelIdeal.Blocks
import proofs.«148190_j1580547973492_1_alg».proof.Proof.CellAccum
import proofs.«148190_j1580547973492_1_alg».proof.Proof.LibRectLoad

noncomputable section

namespace Cert.KernelIdeal.CellValue

open Cert.KernelIdeal Cert.KernelIdeal.Gen Cert.KernelIdeal.Region Cert.GruCell
open Idealize.ShloMosaic Idealize.ShloMosaic.TcCoe Idealize.ShloMosaic.ValueIdx

variable (m : (ℓ : Loc nD τ sig) → Buf (Elt Ideal) ℓ)

/-- Point t of the 64 × 8 grid has coordinates (t / 8, t % 8). -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem lt512 (t : Fin cfg0.N) : t.val < 512 := by have h : cfg0.N = 512 := N_0; have := t.isLt; omega

/-- Row p of row block t / 8 is row 128 (t / 8) + p. -/
theorem rowOf_val (t : Fin cfg0.N) (p : Fin 128) : (rowOf (t.val / 8) p).val = 128 * (t.val / 8) + p.val := by
  show (128 * (t.val / 8) + p.val) % 8192 = _
  have := lt512 t; have := p.isLt; omega

/-- Feature j of run t % 8 is feature 256 (t % 8) + j. -/
theorem featOf_val (t : Fin cfg0.N) (j : Fin 256) : (featOf (t.val % 8) j).val = 256 * (t.val % 8) + j.val := by
  show (256 * (t.val % 8) + j.val) % 2048 = _
  have := j.isLt; omega

/-- The input side's product at point t: x's block X against the stacked input-side weight's block W, summed over the
    block's 256 features, is the run's share of the contraction. -/
theorem step_in (c : Dev nD) (t : Fin cfg0.N) (p : Fin 128) (cc : Fin 6144)
    (X : Vec Ideal S128x256 .bf16) (W : Vec Ideal S6144x256 .bf16) (hX : X = iblk m c 0 t) (hW : W = iblk m c 2 t) :
    (∑ j : Fin 256, X (ix2 p j) * W (ix2 cc j))
      = stepProd (m (c, Proc.devRef .tc main_arg0)) (stackWi m c) (t.val / 8) (t.val % 8) p cc := by
  subst hX hW
  unfold stepProd
  refine Finset.sum_congr rfl fun j _ => ?_
  rw [iblk0_apply m c t (ix2 p j) (ix2 (rowOf (t.val / 8) p) (featOf (t.val % 8) j)) (rowOf_val t p) (featOf_val t j),
    V_main_v8_apply, iblk2_apply m c t (ix2 cc j) (ix2 cc (featOf (t.val % 8) j)) rfl (featOf_val t j), V_main_v1_apply]

/-- The hidden side's product at point t: H, the 256 columns of h's row block at offset 256 (t % 8), against the
    stacked hidden-side weight's block W. -/
theorem step_hid (c : Dev nD) (t : Fin cfg0.N) (p : Fin 128) (cc : Fin 6144)
    (H : Vec Ideal S128x256 .f32) (W : Vec Ideal S6144x256 .bf16)
    (hH : H = View.ld (iblk m c 1 t : Vec Ideal S128x2048 .f32) (Rect.unit (s := S128x2048) (k0_off1 (grid0.coords t)) S128x256.size (k0_off1_inb (grid0.coords t))))
    (hW : W = iblk m c 3 t) :
    (∑ j : Fin 256, H (ix2 p j) * W (ix2 cc j))
      = stepProd (m (c, Proc.devRef .tc main_arg1)) (stackWh m c) (t.val / 8) (t.val % 8) p cc := by
  subst hH hW
  unfold stepProd
  refine Finset.sum_congr rfl fun j _ => ?_
  have hk : ∀ a, ((ix2 p (featOf (t.val % 8) j) : S128x2048.Idx) a).val = k0_off1 (grid0.coords t) a + ((ix2 p j : S128x256.Idx) a).val := by
    intro a
    rw [k0_off1_eq]
    match a with
    | ⟨0, _⟩ => show p.val = 0 + p.val; omega
    | ⟨1, _⟩ => show (featOf (t.val % 8) j).val = 256 * (grid0.coords t 1).val + j.val; rw [featOf_val, (coords_val t).2]
  rw [View.ld_unit_at (iblk m c 1 t : Vec Ideal S128x2048 .f32) (k0_off1 (grid0.coords t)) S128x256.size (k0_off1_inb (grid0.coords t))
      (ix2 p j) (ix2 p (featOf (t.val % 8) j)) hk,
    iblk1_apply m c t (ix2 p (featOf (t.val % 8) j)) (ix2 (rowOf (t.val / 8) p) (featOf (t.val % 8) j)) (rowOf_val t p) rfl,
    V_main_arg1, iblk3_apply m c t (ix2 cc j) (ix2 cc (featOf (t.val % 8) j)) rfl (featOf_val t j), V_main_v3_apply]

/-- The input-side bias row's block at column cc. -/
theorem bias_in (c : Dev nD) (t : Fin cfg0.N) (cc : Fin 6144) :
    (iblk m c 4 t : Vec Ideal S1x6144 .f32) (ix2 (0 : Fin 1) cc) = stackBi m c (ix1 cc) :=
  (iblk4_apply m c t _).trans (V_main_v5_apply m c cc)

/-- The hidden-side bias row's block at column cc. -/
theorem bias_hid (c : Dev nD) (t : Fin cfg0.N) (cc : Fin 6144) :
    (iblk m c 5 t : Vec Ideal S1x6144 .f32) (ix2 (0 : Fin 1) cc) = stackBh m c (ix1 cc) :=
  (iblk5_apply m c t _).trans (V_main_v7_apply m c cc)

/-- h's row block at point t, entry (p, q), is h at row 128 (t / 8) + p and column q. -/
theorem h_at (c : Dev nD) (t : Fin cfg0.N) (p : Fin 128) (q : Fin 2048) :
    (iblk m c 1 t : Vec Ideal S128x2048 .f32) (ix2 p q)
      = (m (c, Proc.devRef .tc main_arg1) : S8192x2048.Idx → EReal) (ix2 (rowOf (t.val / 8) p) q) :=
  (iblk1_apply m c t (ix2 p q) (ix2 (rowOf (t.val / 8) p) q) (rowOf_val t p) rfl).trans (congrFun (V_main_arg1 m c) _)

end Cert.KernelIdeal.CellValue

end
-- ==== Proof.KernelIdeal.CellRun.lean ====
/-
  The kernel's result array is the cell of CellSpec.lean.

  By induction on the grid point: away from the last step of a row block's reduction, each accumulator entry is the
  running total of the steps so far (cleared to 0 at the first step, then one block product per step). At the last
  step the running total plus that step's product is the whole contraction over the 2048 features; with the bias it is
  the affine map's entry, and the stored row block is the blend of the gates, which is the cell at rows
  128 b … 128 b + 127. The row blocks written back at the 64 last steps tile the result array.
-/
import proofs.«148190_j1580547973492_1_alg».proof.Proof.KernelIdeal.Pieces
import proofs.«148190_j1580547973492_1_alg».proof.Proof.KernelIdeal.Payloads
import proofs.«148190_j1580547973492_1_alg».proof.Proof.KernelIdeal.Steps

set_option maxRecDepth 16384

noncomputable section

namespace Cert.KernelIdeal.CellValue

open Cert.KernelIdeal Cert.KernelIdeal.Gen Cert.KernelIdeal.Region Cert.GruCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The batch x and the hidden state h at launch. -/
abbrev argX (c : Dev nD) : SBatch.Idx → EReal := m (c, Proc.devRef .tc main_arg0)
abbrev argH (c : Dev nD) : SBatch.Idx → EReal := m (c, Proc.devRef .tc main_arg1)

/-! ## The accumulators are running totals -/

/-- A first step: 0 plus the step's product. -/
theorem accA (c : Dev nD) (t : Fin cfg0.N) (h0 : t.val % 8 = 0) (h1 : ¬t.val % 8 = 7) (p : Fin 128) (cc : Fin 6144) :
    ((outsAt0 m c t.val t.isLt).2.1 : S128x6144.Idx → EReal) (ix2 p cc) = partialSum (argX m c) (stackWi m c) (t.val / 8) (t.val % 8) p cc
      ∧ ((outsAt0 m c t.val t.isLt).2.2 : S128x6144.Idx → EReal) (ix2 p cc) = partialSum (argH m c) (stackWh m c) (t.val / 8) (t.val % 8) p cc := by
  rw [outsAt0_A m c t h0 h1]
  unfold stepA
  dsimp only
  constructor
  · refine (congrFun (soutA0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p cc)).trans ?_
    refine (pay3_at (iblk m c 0 t) (iblk m c 2 t) (k0_pay1 (F := Ideal)) p cc).trans ?_
    rw [pay1_at, step_in m c t p cc (iblk m c 0 t) (iblk m c 2 t) rfl rfl, h0]
    exact (partialSum_zero _ _ _ _ _).symm
  · refine (congrFun (soutA1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p cc)).trans ?_
    refine (pay4_at (hidSub (grid0.coords t) (iblk m c 1 t)) (iblk m c 3 t) (k0_pay2 (F := Ideal)) p cc).trans ?_
    rw [pay2_at, step_hid m c t p cc (hidSub (grid0.coords t) (iblk m c 1 t)) (iblk m c 3 t) rfl rfl, h0]
    exact (partialSum_zero _ _ _ _ _).symm

/-- A middle step: what the step before left plus the step's product. -/
theorem accB (c : Dev nD) (t : Fin cfg0.N) (h0 : ¬t.val % 8 = 0) (h1 : ¬t.val % 8 = 7) (p : Fin 128) (cc : Fin 6144)
    (ih0 : ((outsAt0 m c (t.val - 1) (Nat.lt_of_le_of_lt (Nat.sub_le _ _) t.isLt)).2.1 : S128x6144.Idx → EReal) (ix2 p cc) = partialSum (argX m c) (stackWi m c) ((t.val - 1) / 8) ((t.val - 1) % 8) p cc)
    (ih1 : ((outsAt0 m c (t.val - 1) (Nat.lt_of_le_of_lt (Nat.sub_le _ _) t.isLt)).2.2 : S128x6144.Idx → EReal) (ix2 p cc) = partialSum (argH m c) (stackWh m c) ((t.val - 1) / 8) ((t.val - 1) % 8) p cc) :
    ((outsAt0 m c t.val t.isLt).2.1 : S128x6144.Idx → EReal) (ix2 p cc) = partialSum (argX m c) (stackWi m c) (t.val / 8) (t.val % 8) p cc
      ∧ ((outsAt0 m c t.val t.isLt).2.2 : S128x6144.Idx → EReal) (ix2 p cc) = partialSum (argH m c) (stackWh m c) (t.val / 8) (t.val % 8) p cc := by
  have e1 : (t.val - 1) / 8 = t.val / 8 := by omega
  have e2 : t.val % 8 = (t.val - 1) % 8 + 1 := by omega
  rw [outsAt0_B m c t h0 h1]
  unfold stepB
  dsimp only
  constructor
  · refine (congrFun (soutB0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p cc)).trans ?_
    refine (pay3_at (iblk m c 0 t) (iblk m c 2 t) (outsAt0 m c (t.val - 1) (Nat.lt_of_le_of_lt (Nat.sub_le _ _) t.isLt)).2.1 p cc).trans ?_
    rw [ih0, step_in m c t p cc (iblk m c 0 t) (iblk m c 2 t) rfl rfl, e1, e2, partialSum_succ]
  · refine (congrFun (soutB1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p cc)).trans ?_
    refine (pay4_at (hidSub (grid0.coords t) (iblk m c 1 t)) (iblk m c 3 t) (outsAt0 m c (t.val - 1) (Nat.lt_of_le_of_lt (Nat.sub_le _ _) t.isLt)).2.2 p cc).trans ?_
    rw [ih1, step_hid m c t p cc (hidSub (grid0.coords t) (iblk m c 1 t)) (iblk m c 3 t) rfl rfl, e1, e2, partialSum_succ]

/-- After every point that is not a last step, both accumulators hold the running totals of the point's row block. -/
theorem acc_inv (c : Dev nD) : ∀ (n : ℕ) (hn : n < cfg0.N), ¬n % 8 = 7 → ∀ (p : Fin 128) (cc : Fin 6144),
    ((outsAt0 m c n hn).2.1 : S128x6144.Idx → EReal) (ix2 p cc) = partialSum (argX m c) (stackWi m c) (n / 8) (n % 8) p cc
      ∧ ((outsAt0 m c n hn).2.2 : S128x6144.Idx → EReal) (ix2 p cc) = partialSum (argH m c) (stackWh m c) (n / 8) (n % 8) p cc := by
  intro n
  induction n with
  | zero => intro hn h7 p cc; exact accA m c ⟨0, hn⟩ (Nat.zero_mod 8) h7 p cc
  | succ k ih =>
    intro hn h7 p cc
    by_cases h0 : (k + 1) % 8 = 0
    · exact accA m c ⟨k + 1, hn⟩ h0 h7 p cc
    · have hk : k < cfg0.N := Nat.lt_of_succ_lt hn
      have hk7 : ¬k % 8 = 7 := by omega
      obtain ⟨i0, i1⟩ := ih hk hk7 p cc
      refine accB m c ⟨k + 1, hn⟩ h0 h7 p cc ?_ ?_
      · simp only [Nat.add_sub_cancel]; exact i0
      · simp only [Nat.add_sub_cancel]; exact i1

/-! ## The last step -/

/-- The eighth running total is the whole contraction. -/
theorem total_eq (x : SBatch.Idx → EReal) (W : SStack.Idx → EReal) (b : ℕ) (p : Fin 128) (cc : Fin 6144) :
    partialSum x W b 6 p cc + stepProd x W b 7 p cc = ∑ k : Fin 2048, x (ix2 (rowOf b p) k) * W (ix2 cc k) :=
  (partialSum_succ x W b 6 p cc).symm.trans (partialSum_full x W b p cc)

/-- At a last step the input-side accumulator, with its product and bias added, is the affine map's entry. -/
theorem gate_in (c : Dev nD) (t : Fin cfg0.N) (h7 : t.val % 8 = 7) (p : Fin 128) (cc : Fin 6144) :
    ((lastAcc0 (iblk m c 0 t) (iblk m c 2 t) (iblk m c 4 t) (outsAt0 m c (t.val - 1) (Nat.lt_of_le_of_lt (Nat.sub_le _ _) t.isLt)).2.1) : S128x6144.Idx → EReal) (ix2 p cc) = gate (argX m c) (stackWi m c) (stackBi m c) (rowOf (t.val / 8) p) cc := by
  have h6 : ¬(t.val - 1) % 8 = 7 := by omega
  have e1 : (t.val - 1) / 8 = t.val / 8 := by omega
  have e2 : (t.val - 1) % 8 = 6 := by omega
  obtain ⟨i0, -⟩ := acc_inv m c (t.val - 1) (Nat.lt_of_le_of_lt (Nat.sub_le _ _) t.isLt) h6 p cc
  refine (pay6_at (k0_pay3 (iblk m c 0 t) (iblk m c 2 t) (outsAt0 m c (t.val - 1) (Nat.lt_of_le_of_lt (Nat.sub_le _ _) t.isLt)).2.1) (iblk m c 4 t) p cc).trans ?_
  rw [pay3_at (iblk m c 0 t) (iblk m c 2 t) (outsAt0 m c (t.val - 1) (Nat.lt_of_le_of_lt (Nat.sub_le _ _) t.isLt)).2.1 p cc, i0, step_in m c t p cc (iblk m c 0 t) (iblk m c 2 t) rfl rfl, bias_in m c t cc, e1, e2, h7, total_eq]
  rfl

/-- The same on the hidden side. -/
theorem gate_hid (c : Dev nD) (t : Fin cfg0.N) (h7 : t.val % 8 = 7) (p : Fin 128) (cc : Fin 6144) :
    ((lastAcc1 (grid0.coords t) (iblk m c 1 t) (iblk m c 3 t) (iblk m c 5 t) (outsAt0 m c (t.val - 1) (Nat.lt_of_le_of_lt (Nat.sub_le _ _) t.isLt)).2.2) : S128x6144.Idx → EReal) (ix2 p cc) = gate (argH m c) (stackWh m c) (stackBh m c) (rowOf (t.val / 8) p) cc := by
  have h6 : ¬(t.val - 1) % 8 = 7 := by omega
  have e1 : (t.val - 1) / 8 = t.val / 8 := by omega
  have e2 : (t.val - 1) % 8 = 6 := by omega
  obtain ⟨-, i1⟩ := acc_inv m c (t.val - 1) (Nat.lt_of_le_of_lt (Nat.sub_le _ _) t.isLt) h6 p cc
  refine (pay7_at (k0_pay4 (hidSub (grid0.coords t) (iblk m c 1 t)) (iblk m c 3 t) (outsAt0 m c (t.val - 1) (Nat.lt_of_le_of_lt (Nat.sub_le _ _) t.isLt)).2.2) (iblk m c 5 t) p cc).trans ?_
  rw [pay4_at (hidSub (grid0.coords t) (iblk m c 1 t)) (iblk m c 3 t) (outsAt0 m c (t.val - 1) (Nat.lt_of_le_of_lt (Nat.sub_le _ _) t.isLt)).2.2 p cc, i1, step_hid m c t p cc (hidSub (grid0.coords t) (iblk m c 1 t)) (iblk m c 3 t) rfl rfl, bias_hid m c t cc, e1, e2, h7, total_eq]
  rfl

/-- The three column ranges the gates are read through. -/
theorem ld_colR (A : Vec Ideal S128x6144 EltTy.f32) (p : Fin 128) (q : Fin 2048) :
    View.ld (Val := Elt Ideal) (e' := EltTy.f32) A (Rect.unit (s := S128x6144) ![0, 0] S128x2048.size inb_S128x6144_S128x2048_0_0) (ix2 p q) = A (ix2 p (colR q)) :=
  View.ld_unit_at (Val := Elt Ideal) (e := EltTy.f32) A ![0, 0] S128x2048.size inb_S128x6144_S128x2048_0_0 (ix2 p q) (ix2 p (colR q)) fun a => match a with
    | ⟨0, _⟩ => (Nat.zero_add _).symm
    | ⟨1, _⟩ => (Nat.zero_add _).symm
theorem ld_colZ (A : Vec Ideal S128x6144 EltTy.f32) (p : Fin 128) (q : Fin 2048) :
    View.ld (Val := Elt Ideal) (e' := EltTy.f32) A (Rect.unit (s := S128x6144) ![0, 2048] S128x2048.size inb_S128x6144_S128x2048_0_2048) (ix2 p q) = A (ix2 p (colZ q)) :=
  View.ld_unit_at (Val := Elt Ideal) (e := EltTy.f32) A ![0, 2048] S128x2048.size inb_S128x6144_S128x2048_0_2048 (ix2 p q) (ix2 p (colZ q)) fun a => match a with
    | ⟨0, _⟩ => (Nat.zero_add _).symm
    | ⟨1, _⟩ => rfl
theorem ld_colN (A : Vec Ideal S128x6144 EltTy.f32) (p : Fin 128) (q : Fin 2048) :
    View.ld (Val := Elt Ideal) (e' := EltTy.f32) A (Rect.unit (s := S128x6144) ![0, 4096] S128x2048.size inb_S128x6144_S128x2048_0_4096) (ix2 p q) = A (ix2 p (colN q)) :=
  View.ld_unit_at (Val := Elt Ideal) (e := EltTy.f32) A ![0, 4096] S128x2048.size inb_S128x6144_S128x2048_0_4096 (ix2 p q) (ix2 p (colN q)) fun a => match a with
    | ⟨0, _⟩ => (Nat.zero_add _).symm
    | ⟨1, _⟩ => rfl

/-- What a last step stores at (p, q) is the cell at row 128 b + p and column q. -/
theorem out_at (c : Dev nD) (t : Fin cfg0.N) (h7 : t.val % 8 = 7) (p : Fin 128) (q : Fin 2048) :
    ((outsAt0 m c t.val t.isLt).1 : S128x2048.Idx → EReal) (ix2 p q)
      = cellAt (argX m c) (argH m c) (stackWi m c) (stackWh m c) (stackBi m c) (stackBh m c) (rowOf (t.val / 8) p) q := by
  have h0 : ¬t.val % 8 = 0 := by omega
  rw [outsAt0_C m c t h0 h7]
  unfold stepC
  dsimp only
  refine (congrFun (outC6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  rw [pay5_at, pay8_at, pay9_at]
  rw [ld_colR (lastAcc0 (iblk m c 0 t) (iblk m c 2 t) (iblk m c 4 t) (outsAt0 m c (t.val - 1) (Nat.lt_of_le_of_lt (Nat.sub_le _ _) t.isLt)).2.1) p q, ld_colZ (lastAcc0 (iblk m c 0 t) (iblk m c 2 t) (iblk m c 4 t) (outsAt0 m c (t.val - 1) (Nat.lt_of_le_of_lt (Nat.sub_le _ _) t.isLt)).2.1) p q, ld_colN (lastAcc0 (iblk m c 0 t) (iblk m c 2 t) (iblk m c 4 t) (outsAt0 m c (t.val - 1) (Nat.lt_of_le_of_lt (Nat.sub_le _ _) t.isLt)).2.1) p q, ld_colR (lastAcc1 (grid0.coords t) (iblk m c 1 t) (iblk m c 3 t) (iblk m c 5 t) (outsAt0 m c (t.val - 1) (Nat.lt_of_le_of_lt (Nat.sub_le _ _) t.isLt)).2.2) p q, ld_colZ (lastAcc1 (grid0.coords t) (iblk m c 1 t) (iblk m c 3 t) (iblk m c 5 t) (outsAt0 m c (t.val - 1) (Nat.lt_of_le_of_lt (Nat.sub_le _ _) t.isLt)).2.2) p q, ld_colN (lastAcc1 (grid0.coords t) (iblk m c 1 t) (iblk m c 3 t) (iblk m c 5 t) (outsAt0 m c (t.val - 1) (Nat.lt_of_le_of_lt (Nat.sub_le _ _) t.isLt)).2.2) p q]
  rw [gate_in m c t h7 p (colR q), gate_in m c t h7 p (colZ q), gate_in m c t h7 p (colN q),
    gate_hid m c t h7 p (colR q), gate_hid m c t h7 p (colZ q), gate_hid m c t h7 p (colN q), h_at m c t p q]
  rfl

/-! ## From the row blocks to the array -/

/-- The result array. -/
abbrev result (c : Dev nD) : Buf (Elt Ideal) ((c : Thread nD τ).loc main_v9) :=
  cell (argX m c) (argH m c) (stackWi m c) (stackWh m c) (stackBi m c) (stackBh m c)

/-- Every write-back writes the cell's row block. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  show (cfg0.win 6).cut (grid0.coords t) ((dats m 0 c).after 6 t) = _
  rw [after0_6]
  funext y
  obtain ⟨p, q, rfl⟩ : ∃ (p : Fin 128) (q : Fin 2048), y = ix2 p q := ⟨y 0, y 1, eq_ix2 y⟩
  have hN : t.val < 512 := lt_of_lt_of_eq t.isLt (show cfg0.N = 512 from N_0)
  refine Eq.trans ?_ (blk6_read (F := Ideal) (result m c) t (ix2 p q) (ix2 (rowOf (t.val / 8) p) q) ?_ rfl).symm
  · exact out_at m c t h7 p q
  · show (128 * (t.val / 8) + p.val) % 8192 = 128 * (t.val / 8) + p.val
    have := p.isLt; omega

/-- So the result array ends holding the cell. -/
theorem final (c : Dev nD) : (dats m 0 c).arrAt 6 cfg0.N = result m c :=
  (dats m 0 c).arrAt_eq_of_cover 6 (result m c) (flushed_eq m c) fun i => cover6 i

/-- The run, read: the result array at the cell, the fourteen arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 6).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.CellValue

end
-- ==== Proof.RefCell.lean ====
/-
  The reference program's result, read entry by entry, is the cell of CellSpec.lean.
-/
import proofs.«148190_j1580547973492_1_alg».proof.Proof.Gen.ReferenceIdeal.Read
import proofs.«148190_j1580547973492_1_alg».proof.Proof.CellSpec

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo Idealize.ShloMosaic.TcCoe Idealize.SL.Sem Cert.GruCell

/-- The word 0x3F800000 is the real number one. -/
theorem ofBits_one : Ideal.ofBits .f32 0x3F800000#32 = 1 := by
  simp [Ideal.ofBits, Ideal.ieee, -EReal.coe_mul]; norm_num

/-! The indices at which the program's operations read their operands, as coordinates. -/

theorem lidx5 (r : Fin 8192) (c : Fin 6144) (k : Fin 2048) : lidx_main_v5 (ix2 r c) k = ix2 r k := by
  funext a; match a with | ⟨0, _⟩ => rfl | ⟨1, _⟩ => rfl

theorem ridx5 (r : Fin 8192) (c : Fin 6144) (k : Fin 2048) : idx_main_v4 (ridx_main_v5 (ix2 r c) k) = ix2 c k := by
  funext a; match a with | ⟨0, _⟩ => rfl | ⟨1, _⟩ => rfl

theorem bidx7 (r : Fin 8192) (c : Fin 6144) : idx_main_v6 (idx_main_v7 (ix2 r c)) = ix1 c := by
  funext a; match a with | ⟨0, _⟩ => rfl

theorem lidx10 (r : Fin 8192) (c : Fin 6144) (k : Fin 2048) : lidx_main_v10 (ix2 r c) k = ix2 r k := by
  funext a; match a with | ⟨0, _⟩ => rfl | ⟨1, _⟩ => rfl

theorem ridx10 (r : Fin 8192) (c : Fin 6144) (k : Fin 2048) : idx_main_v9 (ridx_main_v10 (ix2 r c) k) = ix2 c k := by
  funext a; match a with | ⟨0, _⟩ => rfl | ⟨1, _⟩ => rfl

theorem bidx12 (r : Fin 8192) (c : Fin 6144) : idx_main_v11 (idx_main_v12 (ix2 r c)) = ix1 c := by
  funext a; match a with | ⟨0, _⟩ => rfl

theorem sidx14 (r : Fin 8192) (q : Fin 2048) : idx_main_v14 (ix2 r q) = ix2 r (colR q) := by
  funext a; match a with | ⟨0, _⟩ => rfl | ⟨1, _⟩ => rfl
theorem sidx15 (r : Fin 8192) (q : Fin 2048) : idx_main_v15 (ix2 r q) = ix2 r (colZ q) := by
  funext a; match a with | ⟨0, _⟩ => rfl | ⟨1, _⟩ => rfl
theorem sidx16 (r : Fin 8192) (q : Fin 2048) : idx_main_v16 (ix2 r q) = ix2 r (colN q) := by
  funext a; match a with | ⟨0, _⟩ => rfl | ⟨1, _⟩ => rfl
theorem sidx17 (r : Fin 8192) (q : Fin 2048) : idx_main_v17 (ix2 r q) = ix2 r (colR q) := by
  funext a; match a with | ⟨0, _⟩ => rfl | ⟨1, _⟩ => rfl
theorem sidx18 (r : Fin 8192) (q : Fin 2048) : idx_main_v18 (ix2 r q) = ix2 r (colZ q) := by
  funext a; match a with | ⟨0, _⟩ => rfl | ⟨1, _⟩ => rfl
theorem sidx19 (r : Fin 8192) (q : Fin 2048) : idx_main_v19 (ix2 r q) = ix2 r (colN q) := by
  funext a; match a with | ⟨0, _⟩ => rfl | ⟨1, _⟩ => rfl

variable (a0 a1 : (⟨S8192x2048, .f32⟩ : BufTy).Contents (Elt Ideal))
  (a2 : (⟨S2048x2048, .f32⟩ : BufTy).Contents (Elt Ideal)) (a3 : (⟨S2048, .f32⟩ : BufTy).Contents (Elt Ideal)) (a4 : (⟨S2048x2048, .f32⟩ : BufTy).Contents (Elt Ideal)) (a5 : (⟨S2048, .f32⟩ : BufTy).Contents (Elt Ideal)) (a6 : (⟨S2048x2048, .f32⟩ : BufTy).Contents (Elt Ideal)) (a7 : (⟨S2048, .f32⟩ : BufTy).Contents (Elt Ideal))
  (a8 : (⟨S2048x2048, .f32⟩ : BufTy).Contents (Elt Ideal)) (a9 : (⟨S2048, .f32⟩ : BufTy).Contents (Elt Ideal)) (a10 : (⟨S2048x2048, .f32⟩ : BufTy).Contents (Elt Ideal)) (a11 : (⟨S2048, .f32⟩ : BufTy).Contents (Elt Ideal)) (a12 : (⟨S2048x2048, .f32⟩ : BufTy).Contents (Elt Ideal)) (a13 : (⟨S2048, .f32⟩ : BufTy).Contents (Elt Ideal))

/-- The input side's affine map at row r and stacked column c. -/
theorem gi_at (r : Fin 8192) (c : Fin 6144) :
    val_main_v8 (F := Ideal) a0 a2 a3 a6 a7 a10 a11 (ix2 r c)
      = gate a0 (val_main_v0 (F := Ideal) a2 a6 a10) (val_main_v1 (F := Ideal) a3 a7 a11) r c := by
  rw [val_main_v8_apply, val_main_v5_apply, val_main_v7_apply, val_main_v6_apply, bidx7]
  unfold gate
  refine congrArg₂ (· + ·) (Finset.sum_congr rfl fun k _ => ?_) rfl
  rw [val_main_v4_apply, lidx5, ridx5]

/-- The hidden side's affine map at row r and stacked column c. -/
theorem gh_at (r : Fin 8192) (c : Fin 6144) :
    val_main_v13 (F := Ideal) a1 a4 a5 a8 a9 a12 a13 (ix2 r c)
      = gate a1 (val_main_v2 (F := Ideal) a4 a8 a12) (val_main_v3 (F := Ideal) a5 a9 a13) r c := by
  rw [val_main_v13_apply, val_main_v10_apply, val_main_v12_apply, val_main_v11_apply, bidx12]
  unfold gate
  refine congrArg₂ (· + ·) (Finset.sum_congr rfl fun k _ => ?_) rfl
  rw [val_main_v9_apply, lidx10, ridx10]

/-- The reset gate: the logistic of the two affine maps' sum at the reset columns. -/
theorem rg_at (r : Fin 8192) (q : Fin 2048) :
    val_main_v26 (F := Ideal) a0 a1 a2 a3 a4 a5 a6 a7 a8 a9 a10 a11 a12 a13 (ix2 r q)
      = Ideal.logistic (gate a0 (val_main_v0 (F := Ideal) a2 a6 a10) (val_main_v1 (F := Ideal) a3 a7 a11) r (colR q) + gate a1 (val_main_v2 (F := Ideal) a4 a8 a12) (val_main_v3 (F := Ideal) a5 a9 a13) r (colR q)) := by
  rw [val_main_v26_apply, val_main_v25_apply, val_main_cst_0_apply, val_main_v24_apply, val_main_v23_apply,
    val_main_cst_apply, val_main_v22_apply, val_main_v21_apply, val_main_v20_apply, val_main_v14_apply,
    val_main_v17_apply, sidx14, sidx17, gi_at, gh_at, Ideal.ofBits_def, ofBits_one]
  rfl

/-- The update gate: the logistic of the two affine maps' sum at the update columns. -/
theorem zg_at (r : Fin 8192) (q : Fin 2048) :
    val_main_v33 (F := Ideal) a0 a1 a2 a3 a4 a5 a6 a7 a8 a9 a10 a11 a12 a13 (ix2 r q)
      = Ideal.logistic (gate a0 (val_main_v0 (F := Ideal) a2 a6 a10) (val_main_v1 (F := Ideal) a3 a7 a11) r (colZ q) + gate a1 (val_main_v2 (F := Ideal) a4 a8 a12) (val_main_v3 (F := Ideal) a5 a9 a13) r (colZ q)) := by
  rw [val_main_v33_apply, val_main_v32_apply, val_main_cst_2_apply, val_main_v31_apply, val_main_v30_apply,
    val_main_cst_1_apply, val_main_v29_apply, val_main_v28_apply, val_main_v27_apply, val_main_v15_apply,
    val_main_v18_apply, sidx15, sidx18, gi_at, gh_at, Ideal.ofBits_def, ofBits_one]
  rfl

/-- The candidate: the hyperbolic tangent of the input side plus the reset gate times the hidden side, at the candidate columns. -/
theorem ng_at (r : Fin 8192) (q : Fin 2048) :
    val_main_v36 (F := Ideal) a0 a1 a2 a3 a4 a5 a6 a7 a8 a9 a10 a11 a12 a13 (ix2 r q)
      = Ideal.tanh (gate a0 (val_main_v0 (F := Ideal) a2 a6 a10) (val_main_v1 (F := Ideal) a3 a7 a11) r (colN q)
          + Ideal.logistic (gate a0 (val_main_v0 (F := Ideal) a2 a6 a10) (val_main_v1 (F := Ideal) a3 a7 a11) r (colR q) + gate a1 (val_main_v2 (F := Ideal) a4 a8 a12) (val_main_v3 (F := Ideal) a5 a9 a13) r (colR q)) * gate a1 (val_main_v2 (F := Ideal) a4 a8 a12) (val_main_v3 (F := Ideal) a5 a9 a13) r (colN q)) := by
  rw [val_main_v36_apply, val_main_v35_apply, val_main_v34_apply, val_main_v16_apply, val_main_v19_apply,
    sidx16, sidx19, gi_at, gh_at, rg_at]
  rfl

/-- The program's result as one function of its fourteen arrays is the cell, with the stacked weights and biases the
    program's own joins of the three gates' arrays. -/
theorem val_eq :
    val_main_v39 (F := Ideal) a0 a1 a2 a3 a4 a5 a6 a7 a8 a9 a10 a11 a12 a13
      = cell a0 a1 (val_main_v0 (F := Ideal) a2 a6 a10) (val_main_v2 (F := Ideal) a4 a8 a12) (val_main_v1 (F := Ideal) a3 a7 a11) (val_main_v3 (F := Ideal) a5 a9 a13) := by
  funext j
  obtain ⟨r, q, rfl⟩ : ∃ r q, j = ix2 r q := ⟨j 0, j 1, eq_ix2 j⟩
  rw [cell_ix2, val_main_v39_apply, val_main_v38_apply, val_main_v37_apply, ng_at, zg_at]
  rfl

/-- The same, with the four joins written out. -/
theorem result_eq :
    val_main_v39 (F := Ideal) a0 a1 a2 a3 a4 a5 a6 a7 a8 a9 a10 a11 a12 a13
      = cell a0 a1 (concatenate S6144x2048 0 [⟨S2048x2048, a2⟩, ⟨S2048x2048, a6⟩, ⟨S2048x2048, a10⟩] concatenates_S2048x2048_S2048x2048_S2048x2048_S6144x2048_d0)
          (concatenate S6144x2048 0 [⟨S2048x2048, a4⟩, ⟨S2048x2048, a8⟩, ⟨S2048x2048, a12⟩] concatenates_S2048x2048_S2048x2048_S2048x2048_S6144x2048_d0)
          (concatenate S6144 0 [⟨S2048, a3⟩, ⟨S2048, a7⟩, ⟨S2048, a11⟩] concatenates_S2048_S2048_S2048_S6144_d0)
          (concatenate S6144 0 [⟨S2048, a5⟩, ⟨S2048, a9⟩, ⟨S2048, a13⟩] concatenates_S2048_S2048_S2048_S6144_d0) :=
  val_eq a0 a1 a2 a3 a4 a5 a6 a7 a8 a9 a10 a11 a12 a13

/-- The result the generated run states, from the launch contents m on device c, is the cell of those contents. -/
theorem run_result_eq (m : (ℓ : Loc nD τ sig) → Buf (Elt Ideal) ℓ) (c : Dev nD) :
    Cert.ReferenceIdeal.Value.res_main_v39 (F := Ideal) m c
      = cell (m ((c.tc : Thread nD τ).loc main_arg0)) (m ((c.tc : Thread nD τ).loc main_arg1))
          (concatenate S6144x2048 0 [⟨S2048x2048, (m ((c.tc : Thread nD τ).loc main_arg2))⟩, ⟨S2048x2048, (m ((c.tc : Thread nD τ).loc main_arg6))⟩, ⟨S2048x2048, (m ((c.tc : Thread nD τ).loc main_arg10))⟩] concatenates_S2048x2048_S2048x2048_S2048x2048_S6144x2048_d0)
          (concatenate S6144x2048 0 [⟨S2048x2048, (m ((c.tc : Thread nD τ).loc main_arg4))⟩, ⟨S2048x2048, (m ((c.tc : Thread nD τ).loc main_arg8))⟩, ⟨S2048x2048, (m ((c.tc : Thread nD τ).loc main_arg12))⟩] concatenates_S2048x2048_S2048x2048_S2048x2048_S6144x2048_d0)
          (concatenate S6144 0 [⟨S2048, (m ((c.tc : Thread nD τ).loc main_arg3))⟩, ⟨S2048, (m ((c.tc : Thread nD τ).loc main_arg7))⟩, ⟨S2048, (m ((c.tc : Thread nD τ).loc main_arg11))⟩] concatenates_S2048_S2048_S2048_S6144_d0)
          (concatenate S6144 0 [⟨S2048, (m ((c.tc : Thread nD τ).loc main_arg5))⟩, ⟨S2048, (m ((c.tc : Thread nD τ).loc main_arg9))⟩, ⟨S2048, (m ((c.tc : Thread nD τ).loc main_arg13))⟩] concatenates_S2048_S2048_S2048_S6144_d0) :=
  (val_main_v39_eq m c).trans (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))

end Cert.ReferenceIdeal.RefValue

end
-- ==== Proof.lean ====
/-
  The five claims about a gated recurrent cell computed by one fused kernel and by its array-level reference.

  The kernel tiles the batch into 64 row blocks of 128 rows and the 2048 shared features into 8 runs of 256; for each
  row block it accumulates, run by run, the input-side and hidden-side products x · Wiᵀ and h · Whᵀ against the stacked
  weights of the three gates, and at the eighth run adds the stacked biases, forms the reset and update gates and the
  candidate, and stores the blended row block. The reference forms the same two affine maps by one contraction each.

  * The three frames: each program runs to the end without fault and leaves its fourteen argument arrays unchanged —
    for the kernel and its idealization by running the body symbolically at each kind of grid point (first, middle,
    last step of a row block's reduction) under the launch's pipeline, for the reference from its operations' run.
  * The idealization rewrote nothing, so there is nothing to preserve.
  * On the extended reals both programs end with the cell of CellSpec.lean: on the kernel's side a sum cut into 8 runs
    is the whole sum (commutativity and associativity only, no finiteness), a change of float format is the identity,
    and the kernel's logistic is the reference's 1 / (1 + e^(−y)); the stacked weights and biases are the same
    concatenations of the arguments on both sides and are never opened.
-/
import proofs.«148190_j1580547973492_1_alg».proof.Defs
import proofs.«148190_j1580547973492_1_alg».proof.Proof.Kernel.Frame
import proofs.«148190_j1580547973492_1_alg».proof.Proof.KernelIdeal.CellRun
import proofs.«148190_j1580547973492_1_alg».proof.Proof.RefCell
import proofs.«148190_j1580547973492_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end at the cell of arguments that agree. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.RefValue.run_result_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
